-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x500000 : Shape := ⟨2, ![2, 500000]⟩
abbrev S500000x32 : Shape := ⟨2, ![500000, 32]⟩
abbrev S288x128 : Shape := ⟨2, ![288, 128]⟩
abbrev S128 : Shape := ⟨1, ![128]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S500000x32 : S_.BroadcastsInDim S500000x32 (![] : Fin 0 → Fin S500000x32.rank)
  reducesTo_S500000x32_S_d0_1 : S500000x32.ReducesTo [0, 1] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg5 : FVec F S128x128 .f32) (main_arg6 : FVec F S128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S100000x128 .f32) (main_arg1 : IVec S2x500000 32) (main_arg2 : FVec F S500000x32 .f32) (main_arg3 : FVec F S288x128 .f32) (main_arg4 : FVec F S128 .f32) (main_arg5 : FVec F S128x128 .f32) (main_arg6 : FVec F S128 .f32) (main_arg7 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S500000x32 .f32 := Host.absf main_arg2
  let main_cst_0 : FVec F S_ .f32 := constant S_ .f32 0x7F800000#32
  let main_v5 : FVec F S500000x32 .f32 := broadcastInDim S500000x32 ![] bcast_S_S500000x32 main_cst_0
  let main_v6 : IVec S500000x32 1 := cmpf .olt main_v4 main_v5
  let main_c_1 : IVec S_ 1 := constantI S_ 1 1#1
  let main_v7 : IVec S_ 1 := (fun x v => Host.reduce IntOp.andi x v reducesTo_S500000x32_S_d0_1 h_S_) main_v6 main_c_1
  let main_v8 : IVec S_ 1 := andi main_v3 main_v7
  let main_v9 : FVec F S288x128 .f32 := Host.absf main_arg3
  let main_cst_2 : FVec F S_ .f32 := constant S_ .f32 0x7F800000#32
  let main_v10 : FVec F S288x128 .f32 := broadcastInDim S288x128 ![] bcast_S_S288x128 main_cst_2
  let main_v11 : IVec S288x128 1 := cmpf .olt main_v9 main_v10
  let main_c_3 : IVec S_ 1 := constantI S_ 1 1#1
  let main_v12 : IVec S_ 1 := (fun x v => Host.reduce IntOp.andi x v reducesTo_S288x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x500000 : Shape := ⟨2, ![2, 500000]⟩
abbrev S500000x32 : Shape := ⟨2, ![500000, 32]⟩
abbrev S288x128 : Shape := ⟨2, ![288, 128]⟩
abbrev S128 : Shape := ⟨1, ![128]⟩
abbrev S128x128 : Shape := ⟨2, ![128, 128]⟩
abbrev S1x500000 : Shape := ⟨2, ![1, 500000]⟩
abbrev S500000 : Shape := ⟨1, ![500000]⟩
abbrev S32x128 : Shape := ⟨2, ![32, 128]⟩
abbrev S_ : Shape := ⟨0, ![]⟩
abbrev S500000x1 : Shape := ⟨2, ![500000, 1]⟩
abbrev S500000x128 : Shape := ⟨2, ![500000, 128]⟩
abbrev S5000x128 : Shape := ⟨2, ![5000, 128]⟩
abbrev S5000x32 : Shape := ⟨2, ![5000, 32]⟩
abbrev S1x128 : Shape := ⟨2, ![1, 128]⟩

abbrev nBuf : Space → Nat
  | .hbm => 73
  | .vmem => 28
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S128x128, .f32⟩
  | .hbm, ⟨13, _⟩ => ⟨S128x128, .bf16⟩
  | .hbm, ⟨14, _⟩ => ⟨S128x128, .f32⟩
  | .hbm, ⟨15, _⟩ => ⟨S128x128, .bf16⟩
  | .hbm, ⟨16, _⟩ => ⟨S32x128, .f32⟩
  | .hbm, ⟨17, _⟩ => ⟨S32x128, .bf16⟩
  | .hbm, ⟨18, _⟩ => ⟨S128x128, .bf16⟩
  | .hbm, ⟨19, _⟩ => ⟨S500000x32, .bf16⟩
  | .hbm, ⟨20, _⟩ => ⟨S100000x128, .bf16⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .bf16⟩
  | .hbm, ⟨30, _⟩ => ⟨S_, .i32⟩
  | .hbm, ⟨31, _⟩ => ⟨S500000, .i32⟩
  | .hbm, ⟨32, _⟩ => ⟨S500000, .i1⟩
  | .hbm, ⟨33, _⟩ => ⟨S_, .i32⟩
  | .hbm, ⟨34, _⟩ => ⟨S500000, .i32⟩
  | .hbm, ⟨35, _⟩ => ⟨S500000, .i32⟩
  | .hbm, ⟨36, _⟩ => ⟨S500000, .i32⟩
  | .hbm, ⟨37, _⟩ => ⟨S500000x1, .i32⟩
  | .hbm, ⟨38, _⟩ => ⟨S500000x128, .bf16⟩
  | .hbm, ⟨39, _⟩ => ⟨S500000x128, .f32⟩
  | .hbm, ⟨40, _⟩ => ⟨S_, .f32⟩
  | .hbm, ⟨41, _⟩ => ⟨S100000x128, .f32⟩
  | .hbm, ⟨42, _⟩ => ⟨S500000x1, .i32⟩
  | .hbm, ⟨43, _⟩ => ⟨S100000x128, .f32⟩
  | .hbm, ⟨44, _⟩ => ⟨S100000x128, .f32⟩
  | .hbm, ⟨45, _⟩ => ⟨S100000x128, .bf16⟩
  | .hbm, ⟨46, _⟩ => ⟨S_, .i32⟩
  | .hbm, ⟨47, _⟩ => ⟨S500000, .i32⟩
  | .hbm, ⟨48, _⟩ => ⟨S500000, .i1⟩
  | .hbm, ⟨49, _⟩ => ⟨S_, .i32⟩
  | .hbm, ⟨50, _⟩ => ⟨S500000, .i32⟩
  | .hbm, ⟨51, _⟩ => ⟨S500000, .i32⟩
  | .hbm, ⟨52, _⟩ => ⟨S500000, .i32⟩
  | .hbm, ⟨53, _⟩ => ⟨S500000x1, .i32⟩
  | .hbm, ⟨54, _⟩ => ⟨S500000x128, .bf16⟩
  | .hbm, ⟨55, _⟩ => ⟨S_, .i32⟩
  | .hbm, ⟨56, _⟩ => ⟨S500000, .i32⟩
  | .hbm, ⟨57, _⟩ => ⟨S500000, .i1⟩
  | .hbm, ⟨58, _⟩ => ⟨S_, .i32⟩
  | .hbm, ⟨59, _⟩ => ⟨S500000, .i32⟩
  | .hbm, ⟨60, _⟩ => ⟨S500000, .i32⟩
  | .hbm, ⟨61, _⟩ => ⟨S500000, .i32⟩
  | .hbm, ⟨62, _⟩ => ⟨S500000x1, .i32⟩
  | .hbm, ⟨63, _⟩ => ⟨S500000x128, .bf16⟩
  | .hbm, ⟨64, _⟩ => ⟨S500000x128, .f32⟩
  | .hbm, ⟨65, _⟩ => ⟨S_, .f32⟩
  | .hbm, ⟨66, _⟩ => ⟨S100000x128, .f32⟩
  | .hbm, ⟨67, _⟩ => ⟨S500000x1, .i32⟩
  | .hbm, ⟨68, _⟩ => ⟨S100000x128, .f32⟩
  | .hbm, ⟨69, _⟩ => ⟨S100000x128, .f32⟩
  | .hbm, ⟨70, _⟩ => ⟨S1x128, .f32⟩
  | .hbm, ⟨71, _⟩ => ⟨S100000x128, .f32⟩
  | .hbm, ⟨72, _⟩ => ⟨S100000x128, .f32⟩
  | .local _ .vmem, ⟨0, _⟩ => ⟨S5000x128, .bf16⟩
  | .local _ .vmem, ⟨1, _⟩ => ⟨S5000x128, .bf16⟩
  | .local _ .vmem, ⟨2, _⟩ => ⟨S5000x128, .bf16⟩
  | .local _ .vmem, ⟨3, _⟩ => ⟨S5000x128, .bf16⟩
  | .local _ .vmem, ⟨4, _⟩ => ⟨S5000x32, .bf16⟩
  | .local _ .vmem, ⟨5, _⟩ => ⟨S5000x32, .bf16⟩
  | .local _ .vmem, ⟨6, _⟩ => ⟨S128x128, .bf16⟩
  | .local _ .vmem, ⟨7, _⟩ => ⟨S128x128, .bf16⟩
  | .local _ .vmem, ⟨8, _⟩ => ⟨S32x128, .bf16⟩
  | .local _ .vmem, ⟨9, _⟩ => ⟨S128, .f32⟩
  | .local _ .vmem, ⟨10, _⟩ => ⟨S128x128, .bf16⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .bf16⟩
  | .local _ .vmem, ⟨15, _⟩ => ⟨S5000x128, .bf16⟩
  | .local _ .vmem, ⟨16, _⟩ => ⟨S5000x128, .bf16⟩
  | .local _ .vmem, ⟨17, _⟩ => ⟨S5000x128, .bf16⟩
  | .local _ .vmem, ⟨18, _⟩ => ⟨S5000x32, .bf16⟩
  | .local _ .vmem, ⟨19, _⟩ => ⟨S5000x32, .bf16⟩
  | .local _ .vmem, ⟨20, _⟩ => ⟨S128x128, .bf16⟩
  | .local _ .vmem, ⟨21, _⟩ => ⟨S128x128, .bf16⟩
  | .local _ .vmem, ⟨22, _⟩ => ⟨S32x128, .bf16⟩
  | .local _ .vmem, ⟨23, _⟩ => ⟨S128, .f32⟩
  | .local _ .vmem, ⟨24, _⟩ => ⟨S128x128, .bf16⟩
  | .local _ .vmem, ⟨25, _⟩ => ⟨S128, .f32⟩
  | .local _ .vmem, ⟨26, _⟩ => ⟨S5000x128, .f32⟩
  | .local _ .vmem, ⟨27, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c : Ref sig .tc := ⟨.hbm, 21, rfl⟩
abbrev main_v13 : Ref sig .tc := ⟨.hbm, 22, rfl⟩
abbrev main_v14 : Ref sig .tc := ⟨.hbm, 23, rfl⟩
abbrev main_c_0 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_1 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_v33 : Ref sig .tc := ⟨.hbm, 47, rfl⟩
abbrev main_v34 : Ref sig .tc := ⟨.hbm, 48, rfl⟩
abbrev main_c_4 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_5 : Ref sig .tc := ⟨.hbm, 55, rfl⟩
abbrev main_v40 : Ref sig .tc := ⟨.hbm, 56, rfl⟩
abbrev main_v41 : Ref sig .tc := ⟨.hbm, 57, rfl⟩
abbrev main_c_6 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg9_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x32 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S32x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x32 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S32x128 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  slices_S288x128_S128x128_0_0 : S288x128.Slices ![0, 0] S128x128
  bitsLt_bf16_f32 : FTy.bits .bf16 < FTy.bits .f32
  slices_S288x128_S128x128_128_0 : S288x128.Slices ![128, 0] S128x128
  slices_S288x128_S32x128_256_0 : S288x128.Slices ![256, 0] S32x128
  bcast_S_S500000 : S_.BroadcastsInDim S500000 (![] : Fin 0 → Fin S500000.rank)
  bcast_S500000_S500000x1_0 : S500000.BroadcastsInDim S500000x1 (![0] : Fin 1 → Fin S500000x1.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x32_S5000x32_0_0 : ∀ a, (![0, 0] : Fin 2 → Nat) a + S5000x32.size a ≤ S5000x32.size a
  h_S5000x32 : 0 < S5000x32.numel
  shapeCasts_S5000x32_S5000x32 : S5000x32.ShapeCasts S5000x32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  shapeCasts_S128_S1x128 : S128.ShapeCasts S1x128
  broadcasts_S1x128_S5000x128 : S1x128.Broadcasts S5000x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S5000x128_S128x128_S5000x128_1_0_0_1_n_n_wf : DotDims.WF S5000x128 S128x128 S5000x128 [1] [0] [0] [1] [] []
  dot_S5000x32_S32x128_S5000x128_1_0_0_1_n_n_wf : DotDims.WF S5000x32 S32x128 S5000x128 [1] [0] [0] [1] [] []
  scatter_S100000x128_S500000x1_S500000x128_1_0_0_1_wf : ScatterDims.WF S100000x128 S500000x1 S500000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .bf16 = 32 ∨ (Rect.block (s := S500000x128) S5000x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S500000x128.size a
  hwx0_1 : ∀ i : grid0.Coords, EltTy.bits .bf16 = 32 ∨ (Rect.block (s := S500000x128) S5000x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S500000x32.size a
  hwx0_2 : ∀ i : grid0.Coords, EltTy.bits .bf16 = 32 ∨ (Rect.block (s := S500000x32) S5000x32.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S32x128.size a ≤ S32x128.size a
  hwx0_5 : ∀ i : grid0.Coords, EltTy.bits .bf16 = 32 ∨ (Rect.block (s := S32x128) S32x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x128.size a ≤ S128x128.size a
  hwx0_7 : ∀ i : grid0.Coords, EltTy.bits .bf16 = 32 ∨ (Rect.block (s := S128x128) S128x128.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128.size a ≤ S128.size a
  hwx0_8 : ∀ i : grid0.Coords, EltTy.bits .f32 = 32 ∨ (Rect.block (s := S128) S128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x128.size a ≤ S500000x128.size a
  hwx0_9 : ∀ i : grid0.Coords, EltTy.bits .f32 = 32 ∨ (Rect.block (s := S500000x128) S5000x128.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S500000x128.size a
  hwx1_0 : ∀ i : grid1.Coords, EltTy.bits .bf16 = 32 ∨ (Rect.block (s := S500000x128) S5000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S500000x128.size a
  hwx1_1 : ∀ i : grid1.Coords, EltTy.bits .bf16 = 32 ∨ (Rect.block (s := S500000x128) S5000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x32.size a ≤ S500000x32.size a
  hwx1_2 : ∀ i : grid1.Coords, EltTy.bits .bf16 = 32 ∨ (Rect.block (s := S500000x32) S5000x32.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S32x128.size a ≤ S32x128.size a
  hwx1_5 : ∀ i : grid1.Coords, EltTy.bits .bf16 = 32 ∨ (Rect.block (s := S32x128) S32x128.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .bf16 = 32 ∨ (Rect.block (s := S128x128) S128x128.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128.size a ≤ S128.size a
  hwx1_8 : ∀ i : grid1.Coords, EltTy.bits .f32 = 32 ∨ (Rect.block (s := S128) S128.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x128.size a ≤ S500000x128.size a
  hwx1_9 : ∀ i : grid1.Coords, EltTy.bits .f32 = 32 ∨ (Rect.block (s := S500000x128) S5000x128.size (cc1_transform_9 i) (hinb1_9 i)).WholeWords (EltTy.packing .f32)

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

abbrev win0_0 : Pipeline.Window sig grid0 :=
  Pipeline.Window.ofSpec (Memref.whole main_v19) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S32x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S5000x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v9) S32x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v10) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg6) S128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v47) S5000x128.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x500000 : Shape := ⟨2, ![2, 500000]⟩
abbrev S500000x32 : Shape := ⟨2, ![500000, 32]⟩
abbrev S288x128 : Shape := ⟨2, ![288, 128]⟩
abbrev S128 : Shape := ⟨1, ![128]⟩
abbrev S128x128 : Shape := ⟨2, ![128, 128]⟩
abbrev S1x500000 : Shape := ⟨2, ![1, 500000]⟩
abbrev S500000 : Shape := ⟨1, ![500000]⟩
abbrev S_ : Shape := ⟨0, ![]⟩
abbrev S500000x1 : Shape := ⟨2, ![500000, 1]⟩
abbrev S500000x128 : Shape := ⟨2, ![500000, 128]⟩
abbrev S500000x288 : Shape := ⟨2, ![500000, 288]⟩
abbrev S1x128 : Shape := ⟨2, ![1, 128]⟩

abbrev nBuf : Space → Nat
  | .hbm => 85
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x500000, .i32⟩
  | .hbm, ⟨2, _⟩ => ⟨S500000x32, .f32⟩
  | .hbm, ⟨3, _⟩ => ⟨S288x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128, .f32⟩
  | .hbm, ⟨8, _⟩ => ⟨S1x500000, .i32⟩
  | .hbm, ⟨9, _⟩ => ⟨S500000, .i32⟩
  | .hbm, ⟨10, _⟩ => ⟨S1x500000, .i32⟩
  | .hbm, ⟨11, _⟩ => ⟨S500000, .i32⟩
  | .hbm, ⟨12, _⟩ => ⟨S_, .i32⟩
  | .hbm, ⟨13, _⟩ => ⟨S500000, .i32⟩
  | .hbm, ⟨14, _⟩ => ⟨S500000, .i1⟩
  | .hbm, ⟨15, _⟩ => ⟨S_, .i32⟩
  | .hbm, ⟨16, _⟩ => ⟨S500000, .i32⟩
  | .hbm, ⟨17, _⟩ => ⟨S500000, .i32⟩
  | .hbm, ⟨18, _⟩ => ⟨S500000, .i32⟩
  | .hbm, ⟨19, _⟩ => ⟨S500000x1, .i32⟩
  | .hbm, ⟨20, _⟩ => ⟨S500000x128, .f32⟩
  | .hbm, ⟨21, _⟩ => ⟨S_, .i32⟩
  | .hbm, ⟨22, _⟩ => ⟨S500000, .i32⟩
  | .hbm, ⟨23, _⟩ => ⟨S500000, .i1⟩
  | .hbm, ⟨24, _⟩ => ⟨S_, .i32⟩
  | .hbm, ⟨25, _⟩ => ⟨S500000, .i32⟩
  | .hbm, ⟨26, _⟩ => ⟨S500000, .i32⟩
  | .hbm, ⟨27, _⟩ => ⟨S500000, .i32⟩
  | .hbm, ⟨28, _⟩ => ⟨S500000x1, .i32⟩
  | .hbm, ⟨29, _⟩ => ⟨S500000x128, .f32⟩
  | .hbm, ⟨30, _⟩ => ⟨S500000x288, .f32⟩
  | .hbm, ⟨31, _⟩ => ⟨S500000x128, .f32⟩
  | .hbm, ⟨32, _⟩ => ⟨S1x128, .f32⟩
  | .hbm, ⟨33, _⟩ => ⟨S500000x128, .f32⟩
  | .hbm, ⟨34, _⟩ => ⟨S500000x128, .f32⟩
  | .hbm, ⟨35, _⟩ => ⟨S_, .f32⟩
  | .hbm, ⟨36, _⟩ => ⟨S500000x128, .f32⟩
  | .hbm, ⟨37, _⟩ => ⟨S500000x128, .f32⟩
  | .hbm, ⟨38, _⟩ => ⟨S500000x128, .f32⟩
  | .hbm, ⟨39, _⟩ => ⟨S1x128, .f32⟩
  | .hbm, ⟨40, _⟩ => ⟨S500000x128, .f32⟩
  | .hbm, ⟨41, _⟩ => ⟨S500000x128, .f32⟩
  | .hbm, ⟨42, _⟩ => ⟨S_, .f32⟩
  | .hbm, ⟨43, _⟩ => ⟨S100000x128, .f32⟩
  | .hbm, ⟨44, _⟩ => ⟨S500000x1, .i32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x128, .f32⟩
  | .hbm, ⟨56, _⟩ => ⟨S_, .i32⟩
  | .hbm, ⟨57, _⟩ => ⟨S500000, .i32⟩
  | .hbm, ⟨58, _⟩ => ⟨S500000, .i1⟩
  | .hbm, ⟨59, _⟩ => ⟨S_, .i32⟩
  | .hbm, ⟨60, _⟩ => ⟨S500000, .i32⟩
  | .hbm, ⟨61, _⟩ => ⟨S500000, .i32⟩
  | .hbm, ⟨62, _⟩ => ⟨S500000, .i32⟩
  | .hbm, ⟨63, _⟩ => ⟨S500000x1, .i32⟩
  | .hbm, ⟨64, _⟩ => ⟨S500000x128, .f32⟩
  | .hbm, ⟨65, _⟩ => ⟨S500000x288, .f32⟩
  | .hbm, ⟨66, _⟩ => ⟨S500000x128, .f32⟩
  | .hbm, ⟨67, _⟩ => ⟨S1x128, .f32⟩
  | .hbm, ⟨68, _⟩ => ⟨S500000x128, .f32⟩
  | .hbm, ⟨69, _⟩ => ⟨S500000x128, .f32⟩
  | .hbm, ⟨70, _⟩ => ⟨S_, .f32⟩
  | .hbm, ⟨71, _⟩ => ⟨S500000x128, .f32⟩
  | .hbm, ⟨72, _⟩ => ⟨S500000x128, .f32⟩
  | .hbm, ⟨73, _⟩ => ⟨S500000x128, .f32⟩
  | .hbm, ⟨74, _⟩ => ⟨S1x128, .f32⟩
  | .hbm, ⟨75, _⟩ => ⟨S500000x128, .f32⟩
  | .hbm, ⟨76, _⟩ => ⟨S500000x128, .f32⟩
  | .hbm, ⟨77, _⟩ => ⟨S_, .f32⟩
  | .hbm, ⟨78, _⟩ => ⟨S100000x128, .f32⟩
  | .hbm, ⟨79, _⟩ => ⟨S500000x1, .i32⟩
  | .hbm, ⟨80, _⟩ => ⟨S100000x128, .f32⟩
  | .hbm, ⟨81, _⟩ => ⟨S100000x128, .f32⟩
  | .hbm, ⟨82, _⟩ => ⟨S1x128, .f32⟩
  | .hbm, ⟨83, _⟩ => ⟨S100000x128, .f32⟩
  | .hbm, ⟨84, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_1 : Ref sig .tc := ⟨.hbm, 21, rfl⟩
abbrev main_v11 : Ref sig .tc := ⟨.hbm, 22, rfl⟩
abbrev main_v12 : Ref sig .tc := ⟨.hbm, 23, rfl⟩
abbrev main_c_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_call0_cst : Ref sig .tc := ⟨.hbm, 35, rfl⟩
abbrev main_call0_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_3 : Ref sig .tc := ⟨.hbm, 47, rfl⟩
abbrev main_v32 : Ref sig .tc := ⟨.hbm, 48, rfl⟩
abbrev main_v33 : Ref sig .tc := ⟨.hbm, 49, rfl⟩
abbrev main_c_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_c_5 : Ref sig .tc := ⟨.hbm, 56, rfl⟩
abbrev main_v39 : Ref sig .tc := ⟨.hbm, 57, rfl⟩
abbrev main_v40 : Ref sig .tc := ⟨.hbm, 58, rfl⟩
abbrev main_c_6 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call1_cst : Ref sig .tc := ⟨.hbm, 70, rfl⟩
abbrev main_call1_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_7 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩

abbrev nD : Nat := 1
abbrev τ : Topo := Topo.v7x

variable {F : FTy → Type} [FloatOps F]

class Facts₀ : Prop where
  slices_S2x500000_S1x500000_0_0 : S2x500000.Slices ![0, 0] S1x500000
  shapeCasts_S1x500000_S500000 : S1x500000.ShapeCasts S500000
  slices_S2x500000_S1x500000_1_0 : S2x500000.Slices ![1, 0] S1x500000
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x32_S500000x288_d1 : Shape.Concatenates [S500000x128, S500000x128, S500000x32] S500000x288 1
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S_S100000x128 : S_.BroadcastsInDim S100000x128 (![] : Fin 0 → Fin S100000x128.rank)
  bcast_S1x128_S100000x128_0_1 : S1x128.BroadcastsInDim S100000x128 (![0, 1] : Fin 2 → Fin S100000x128.rank)
  gather_S100000x128_S500000x1_S500000x128_1_0_n_n_0_1_1128_wf : GatherDims.WF S100000x128 S500000x1 S500000x128 [1] [0] [] [0] [] 1 ![1, 128]
  dot_S500000x288_S288x128_S500000x128_1_0_0_1_n_n_wf : DotDims.WF S500000x288 S288x128 S500000x128 [1] [0] [0] [1] [] []
  dot_S500000x128_S128x128_S500000x128_1_0_0_1_n_n_wf : DotDims.WF S500000x128 S128x128 S500000x128 [1] [0] [0] [1] [] []
  scatter_S100000x128_S500000x1_S500000x128_1_0_0_1_wf : ScatterDims.WF S100000x128 S500000x1 S500000x128 [1] [0] [0] 1

variable [Facts₀]

def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf
def dot_S500000x288_S288x128_S500000x128_1_0_0_1_n_n : DotDims S500000x288 S288x128 S500000x128 where
  lhsContracting := [1]
  rhsContracting := [0]
  lhsNonContracting := [0]
  rhsNonContracting := [1]
  lhsBatch := []
  rhsBatch := []
  wf := dot_S500000x288_S288x128_S500000x128_1_0_0_1_n_n_wf
def dot_S500000x128_S128x128_S500000x128_1_0_0_1_n_n : DotDims S500000x128 S128x128 S500000x128 where
  lhsContracting := [1]
  rhsContracting := [0]
  lhsNonContracting := [0]
  rhsNonContracting := [1]
  lhsBatch := []
  rhsBatch := []
  wf := dot_S500000x128_S128x128_S500000x128_1_0_0_1_n_n_wf
def scatter_S100000x128_S500000x1_S500000x128_1_0_0_1 : ScatterDims S100000x128 S500000x1 S500000x128 where
  updateWindowDims := [1]
  insertedWindowDims := [0]
  scatterDimsToOperandDims := [0]
  indexVectorDim := 1
  wf := scatter_S100000x128_S500000x1_S500000x128_1_0_0_1_wf

class Facts : Prop extends Facts₀ where

variable [Facts]
-- ==== Proof.KernelRun.lean ====
/-
  The idealized kernel's run with its result named.

  @main is three stretches of host operations around two edge-network regions. Every weakly fair execution
  terminates, nothing faulting; at the end every unscoped buffer of core `c` holds the last boundary's contents
  — the launch memory pushed through the first stretch, the first region's write-backs, the second stretch, the second
  region's write-backs and the last stretch —, in particular the result buffer, and the argument arrays hold what
  they were launched with.
-/
import proofs.«151909_j15006615733821_1_alg».proof.Proof.KernelIdealFrameP

set_option maxRecDepth 16384

noncomputable section

namespace Cert.KernelIdeal.Run

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates with the result buffer at the last boundary's contents and the
    argument arrays as launched: the segments' run, the last thread state read against the final state at the result
    buffer and at each argument. -/
theorem run_result : θ_run defs (onTc (τ := τ) (main (F := F))) ⟨m, fun _ => 0, ρ⟩ (fun r => ∀ c : Dev nD,
      r.2.mem ((c.tc : Thread nD τ).loc main_v54) = W5 m ρ c (Proc.devRef .tc main_v54)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v54 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.Run

end
-- ==== Proof.LibSumSplit.lean ====
/-
  A sum over `Fin n` with `n = a + b` is the sum of its first `a` terms plus the sum of its last `b` terms,
  with the two halves indexed by `Fin a` and `Fin b` through explicit bounds (no cast of the index type is left
  in the statement). It holds in any additive commutative monoid: only associativity and commutativity of
  addition are used, so it applies to the extended reals as it stands, infinities included.
-/
import Mathlib.Algebra.BigOperators.Fin

namespace Cert.LibSumSplit

/-- `∑ k < a + b, g k = ∑ k < a, g k + ∑ k < b, g (a + k)`, the index type of the whole sum being `Fin n` for
    any `n` equal to `a + b`. -/
theorem sum_split {M : Type*} [AddCommMonoid M] (a b n : ℕ) (h : a + b = n) (g : Fin n → M) :
    ∑ k : Fin n, g k
      = ∑ k : Fin a, g ⟨k.val, by have := k.isLt; omega⟩ + ∑ k : Fin b, g ⟨a + k.val, by have := k.isLt; omega⟩ := by
  subst h
  exact Fin.sum_univ_add g

end Cert.LibSumSplit
-- ==== Proof.EdgeMlp.lean ====
/-
  The edge network of one message-passing round, as mathematics over the extended reals.

  An edge `p` carries the feature rows `hi p`, `hj p` (128 entries each, the two endpoint rows) and `ea p`
  (32 entries). The first layer maps their concatenation, 288 entries, through a 288 × 128 weight and adds a
  bias; a rectifier follows; the second layer is a 128 × 128 weight and a bias. Written with the first weight cut
  into its three row bands (rows 0–127, 128–255, 256–287) the first layer is a sum of three products; written
  with the whole weight against the concatenated row it is one product. The two agree because a sum over 288
  terms is the sum of its first 128, its next 128 and its last 32 terms — associativity and commutativity of
  addition only, so the agreement holds at infinite entries too.
-/
import Idealize.ShloMosaic.PureOps.Ideal.Laws
import Idealize.ShloMosaic.Lib.ValueIdx
import proofs.«151909_j15006615733821_1_alg».proof.Proof.LibSumSplit

noncomputable section

namespace Cert.EdgeMlp

open Idealize.ShloMosaic Idealize.ShloMosaic.ValueIdx
open scoped BigOperators

/-- An `a × b` array of extended reals. -/
abbrev Mat (a b : ℕ) : Type := (⟨2, ![a, b]⟩ : Shape).Idx → EReal
/-- A vector of `a` extended reals. -/
abbrev Row (a : ℕ) : Type := (⟨1, ![a]⟩ : Shape).Idx → EReal

/-- The first layer before the rectifier, at edge `p` and hidden unit `k`, the weight given as its three row
    bands `wa`, `wb`, `wc`: `hi p · wa + hj p · wb + ea p · wc + b1`. -/
def hidden {E : ℕ} (hi hj : Mat E 128) (ea : Mat E 32) (wa wb : Mat 128 128) (wc : Mat 32 128) (b1 : Row 128)
    (p : Fin E) (k : Fin 128) : EReal :=
  (((∑ j : Fin 128, hi (ix2 p j) * wa (ix2 j k)) + ∑ j : Fin 128, hj (ix2 p j) * wb (ix2 j k))
      + ∑ j : Fin 32, ea (ix2 p j) * wc (ix2 j k)) + b1 (ix1 k)

/-- The message of edge `p` at channel `c`: the rectified first layer through the second weight, plus its bias. -/
def msgAt {E : ℕ} (hi hj : Mat E 128) (ea : Mat E 32) (wa wb : Mat 128 128) (wc : Mat 32 128) (b1 : Row 128)
    (w2 : Mat 128 128) (b2 : Row 128) (p : Fin E) (c : Fin 128) : EReal :=
  (∑ k : Fin 128, max (hidden hi hj ea wa wb wc b1 p k) (Ideal.ofBits .f32 0x00000000#32) * w2 (ix2 k c))
    + b2 (ix1 c)

/-- All messages, as an `E × 128` array. -/
def msg {E : ℕ} (hi hj : Mat E 128) (ea : Mat E 32) (wa wb : Mat 128 128) (wc : Mat 32 128) (b1 : Row 128)
    (w2 : Mat 128 128) (b2 : Row 128) : Mat E 128 :=
  fun i => msgAt hi hj ea wa wb wc b1 w2 b2 (i 0) (i 1)

theorem msg_ix2 {E : ℕ} (hi hj : Mat E 128) (ea : Mat E 32) (wa wb : Mat 128 128) (wc : Mat 32 128) (b1 : Row 128)
    (w2 : Mat 128 128) (b2 : Row 128) (p : Fin E) (c : Fin 128) :
    msg hi hj ea wa wb wc b1 w2 b2 (ix2 p c) = msgAt hi hj ea wa wb wc b1 w2 b2 p c := rfl

/-- A message depends on the edge arrays only through the edge's own rows: if the rows of edge `p` in one
    family of arrays are the rows of edge `q` in another, the two messages agree. (A block of consecutive edges
    computes the messages of those edges of the whole array.) -/
theorem msgAt_rows {E E' : ℕ} (hi hj : Mat E 128) (ea : Mat E 32) (hi' hj' : Mat E' 128) (ea' : Mat E' 32)
    (wa wb : Mat 128 128) (wc : Mat 32 128) (b1 : Row 128) (w2 : Mat 128 128) (b2 : Row 128)
    (p : Fin E) (q : Fin E') (c : Fin 128)
    (h0 : ∀ j : Fin 128, hi (ix2 p j) = hi' (ix2 q j)) (h1 : ∀ j : Fin 128, hj (ix2 p j) = hj' (ix2 q j))
    (h2 : ∀ j : Fin 32, ea (ix2 p j) = ea' (ix2 q j)) :
    msgAt hi hj ea wa wb wc b1 w2 b2 p c = msgAt hi' hj' ea' wa wb wc b1 w2 b2 q c := by
  unfold msgAt hidden
  simp only [h0, h1, h2]

/-- The first layer before the rectifier with the weight whole: the concatenated row `cat p` (288 entries)
    against the 288 × 128 weight, plus the bias. -/
def hiddenCat {E : ℕ} (cat : Mat E 288) (w1 : Mat 288 128) (b1 : Row 128) (p : Fin E) (k : Fin 128) : EReal :=
  (∑ j : Fin 288, cat (ix2 p j) * w1 (ix2 j k)) + b1 (ix1 k)

/-- The whole-weight first layer is the three-band one, when the concatenated row is `hi p`, `hj p`, `ea p` laid
    end to end and the bands are the weight's rows 0–127, 128–255, 256–287: the sum over 288 terms split at 256
    and then at 128. -/
theorem hiddenCat_eq {E : ℕ} (cat : Mat E 288) (w1 : Mat 288 128) (b1 : Row 128)
    (hi hj : Mat E 128) (ea : Mat E 32) (wa wb : Mat 128 128) (wc : Mat 32 128) (p : Fin E) (k : Fin 128)
    (c0 : ∀ j : Fin 128, cat (ix2 p ⟨j.val, by have := j.isLt; omega⟩) = hi (ix2 p j))
    (c1 : ∀ j : Fin 128, cat (ix2 p ⟨128 + j.val, by have := j.isLt; omega⟩) = hj (ix2 p j))
    (c2 : ∀ j : Fin 32, cat (ix2 p ⟨256 + j.val, by have := j.isLt; omega⟩) = ea (ix2 p j))
    (wa0 : ∀ j : Fin 128, w1 (ix2 ⟨j.val, by have := j.isLt; omega⟩ k) = wa (ix2 j k))
    (wb0 : ∀ j : Fin 128, w1 (ix2 ⟨128 + j.val, by have := j.isLt; omega⟩ k) = wb (ix2 j k))
    (wc0 : ∀ j : Fin 32, w1 (ix2 ⟨256 + j.val, by have := j.isLt; omega⟩ k) = wc (ix2 j k)) :
    hiddenCat cat w1 b1 p k = hidden hi hj ea wa wb wc b1 p k := by
  unfold hiddenCat hidden
  refine congrArg (· + b1 (ix1 k)) ?_
  rw [Cert.LibSumSplit.sum_split 256 32 288 rfl, Cert.LibSumSplit.sum_split 128 128 256 rfl]
  refine congrArg₂ (· + ·) (congrArg₂ (· + ·) ?_ ?_) ?_
  · exact Finset.sum_congr rfl fun j _ => congrArg₂ (· * ·) (c0 j) (wa0 j)
  · exact Finset.sum_congr rfl fun j _ => congrArg₂ (· * ·) (c1 j) (wb0 j)
  · exact Finset.sum_congr rfl fun j _ => congrArg₂ (· * ·) (c2 j) (wc0 j)

end Cert.EdgeMlp

end
-- ==== Proof.LibPlainMatmul.lean ====
/-
  A plain matrix product into a zero accumulator, read at an entry.

  For a dot whose dimension numbers contract the left operand's columns against the right operand's rows, with no batch
  axis — `[M, K] × [K, N] → [M, N]` — the product accumulated into the zero splat is, at the extended reals, the
  textbook sum: entry `(p, c)` is the sum over `k` of `lhs (p, k) · rhs (k, c)`. The dimension numbers enter only
  through four coordinate facts about the dot's operand indices (which a literal record proves by evaluating its
  membership tests) and the fact that exactly one axis, of extent `K`, is contracted; the lemma is general in the
  extents, the element types and the contraction precision, so it serves every such product of a kernel body.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

/-- Entry `(p, c)` of `lhs · rhs` accumulated into zero is `Σ k, lhs (p, k) · rhs (k, c)`: the dot's sum over its
    one-axis contraction index, re-indexed along the bijection of that index with `Fin K`, each operand index then
    identified by its two coordinates. -/
theorem matmul_zero_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    matmul D prec lhs rhs (constant ⟨2, ![M, N]⟩ .f32 0x00000000#32) (ix2 p c)
      = ∑ k : Fin K, lhs (ix2 p k) * rhs (ix2 k c) := by
  simp only [matmul]
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainMatmul

end
-- ==== Proof.Body.lean ====
/-
  The kernel body's arithmetic, read at an entry.

  One grid point of the edge kernel holds a block of 5000 edges: the blocks `x0`, `x1` of the two gathered
  endpoint arrays, the block `x2` of the edge attributes, and the whole weight bands `x3`, `x4`, `x5`, biases `x6`,
  `x8` and second weight `x7`. The body forms three matrix products into zero accumulators, adds them and the
  first bias, takes the maximum with zero, multiplies by the second weight and adds the second bias. Changes of
  float format are the identity on the extended reals, a product into a zero accumulator is the textbook sum, and
  a bias cast to one row and broadcast over the rows reads, at `(p, c)`, the bias at `c`: so entry `(p, c)` of the
  stored block is the message of edge `p` at channel `c` as `EdgeMlp.msgAt` states it.
-/
import proofs.«151909_j15006615733821_1_alg».proof.Proof.Gen.KernelIdeal.Skeleton
import proofs.«151909_j15006615733821_1_alg».proof.Proof.EdgeMlp
import proofs.«151909_j15006615733821_1_alg».proof.Proof.LibPlainMatmul
import Idealize.ShloMosaic.Lib.Pipeline.Value
import Idealize.ShloMosaic.Lib.ValueLayout

noncomputable section

namespace Cert.KernelIdeal.Body

open Cert.KernelIdeal Cert.KernelIdeal.Gen Idealize.ShloMosaic Idealize.ShloMosaic.ValueIdx Cert.EdgeMlp
open scoped BigOperators

/-! ## The two dot records: which operand entry a result entry and a contraction position name -/

theorem d128_l0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide),
    dif_pos (show (0 : Fin S5000x128.rank) ∈ dot_S5000x128_S128x128_S5000x128_1_0_0_1_n_n.lhsNonContracting by decide)]
  rfl
theorem d128_l1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem d128_r0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem d128_r1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide),
    dif_pos (show (1 : Fin S128x128.rank) ∈ dot_S5000x128_S128x128_S5000x128_1_0_0_1_n_n.rhsNonContracting by decide)]
  rfl

theorem d32_l0 (i : S5000x128.Idx) (q : dot_S5000x32_S32x128_S5000x128_1_0_0_1_n_n.contr.Idx) :
    (dot_S5000x32_S32x128_S5000x128_1_0_0_1_n_n.lhsIdx i q 0).val = (i 0).val := by
  unfold DotDims.lhsIdx
  rw [dif_neg (show ¬(0 : Fin S5000x32.rank) ∈ dot_S5000x32_S32x128_S5000x128_1_0_0_1_n_n.lhsBatch by decide),
    dif_pos (show (0 : Fin S5000x32.rank) ∈ dot_S5000x32_S32x128_S5000x128_1_0_0_1_n_n.lhsNonContracting by decide)]
  rfl
theorem d32_l1 (i : S5000x128.Idx) (q : dot_S5000x32_S32x128_S5000x128_1_0_0_1_n_n.contr.Idx) :
    (dot_S5000x32_S32x128_S5000x128_1_0_0_1_n_n.lhsIdx i q 1).val = (q ⟨0, by decide⟩).val :=
  dot_S5000x32_S32x128_S5000x128_1_0_0_1_n_n.lhsIdx_val_of_single rfl i q
theorem d32_r0 (i : S5000x128.Idx) (q : dot_S5000x32_S32x128_S5000x128_1_0_0_1_n_n.contr.Idx) :
    (dot_S5000x32_S32x128_S5000x128_1_0_0_1_n_n.rhsIdx i q 0).val = (q ⟨0, by decide⟩).val :=
  dot_S5000x32_S32x128_S5000x128_1_0_0_1_n_n.rhsIdx_val_of_single rfl i q
theorem d32_r1 (i : S5000x128.Idx) (q : dot_S5000x32_S32x128_S5000x128_1_0_0_1_n_n.contr.Idx) :
    (dot_S5000x32_S32x128_S5000x128_1_0_0_1_n_n.rhsIdx i q 1).val = (i 1).val := by
  unfold DotDims.rhsIdx
  rw [dif_neg (show ¬(1 : Fin S32x128.rank) ∈ dot_S5000x32_S32x128_S5000x128_1_0_0_1_n_n.rhsBatch by decide),
    dif_pos (show (1 : Fin S32x128.rank) ∈ dot_S5000x32_S32x128_S5000x128_1_0_0_1_n_n.rhsNonContracting by decide)]
  rfl

/-! ## The body's non-pointwise operations at an entry -/

/-- A `[5000, 128] × [128, 128]` product into zero at `(p, c)`: the sum over the 128 contracted positions. -/
theorem mm128 (l : FVec Ideal S5000x128 .bf16) (r : FVec Ideal S128x128 .bf16) (p : Fin 5000) (c : Fin 128) :
    matmul dot_S5000x128_S128x128_S5000x128_1_0_0_1_n_n none l r (constant (F := Ideal) S5000x128 .f32 0x00000000#32) (ix2 p c)
      = ∑ k : Fin 128, l (ix2 p k) * r (ix2 k c) :=
  Cert.LibPlainMatmul.matmul_zero_ix2 dot_S5000x128_S128x128_S5000x128_1_0_0_1_n_n none rfl rfl
    d128_l0 d128_l1 d128_r0 d128_r1 l r p c

/-- A `[5000, 32] × [32, 128]` product into zero at `(p, c)`: the sum over the 32 contracted positions. -/
theorem mm32 (l : FVec Ideal S5000x32 .bf16) (r : FVec Ideal S32x128 .bf16) (p : Fin 5000) (c : Fin 128) :
    matmul dot_S5000x32_S32x128_S5000x128_1_0_0_1_n_n none l r (constant (F := Ideal) S5000x128 .f32 0x00000000#32) (ix2 p c)
      = ∑ k : Fin 32, l (ix2 p k) * r (ix2 k c) :=
  Cert.LibPlainMatmul.matmul_zero_ix2 dot_S5000x32_S32x128_S5000x128_1_0_0_1_n_n none rfl rfl
    d32_l0 d32_l1 d32_r0 d32_r1 l r p c

/-- A 128-vector cast to one row and broadcast over 5000 rows reads, at `(p, c)`, the vector at `c`. -/
theorem bias_row (v : FVec Ideal S128 .f32) (p : Fin 5000) (c : Fin 128) :
    broadcastTo S5000x128 (shapeCast S1x128 v shapeCasts_S128_S1x128) broadcasts_S1x128_S5000x128 (ix2 p c) = v (ix1 c) :=
  (broadcastTo_1b_ab_apply _ _ p c).trans (shapeCast_a_1a_apply v _ 0 c)

/-! ## The stored block -/

/-- Entry `(p, c)` of the block the body stores is the message of the block's edge `p` at channel `c`. -/
theorem pay_at (x0 x1 : FVec Ideal S5000x128 .bf16) (x2 : FVec Ideal S5000x32 .bf16) (x3 x4 : FVec Ideal S128x128 .bf16)
    (x5 : FVec Ideal S32x128 .bf16) (x6 : FVec Ideal S128 .f32) (x7 : FVec Ideal S128x128 .bf16) (x8 : FVec Ideal S128 .f32)
    (p : Fin 5000) (c : Fin 128) :
    k0_pay1 (F := Ideal) x0 x1 x2 x3 x4 x5 x6 x7 x8 (ix2 p c) = msgAt x0 x1 x2 x3 x4 x5 x6 x7 x8 p c := by
  unfold k0_pay1 msgAt
  simp only [shapeCast_self]
  refine congrArg₂ (· + ·) ?_ (bias_row x8 p c)
  refine (mm128 _ _ p c).trans (Finset.sum_congr rfl fun k _ => congrArg (· * x7 (ix2 k c)) ?_)
  refine congrArg (max · (Ideal.ofBits .f32 0x00000000#32)) ?_
  unfold Cert.EdgeMlp.hidden
  refine congrArg₂ (· + ·) ?_ (bias_row x6 p k)
  exact congrArg₂ (· + ·) (congrArg₂ (· + ·) (mm128 x0 x3 p k) (mm128 x1 x4 p k)) (mm32 x2 x5 p k)

/-- The stored block is the array of the block's messages. -/
theorem pay_eq (x0 x1 : FVec Ideal S5000x128 .bf16) (x2 : FVec Ideal S5000x32 .bf16) (x3 x4 : FVec Ideal S128x128 .bf16)
    (x5 : FVec Ideal S32x128 .bf16) (x6 : FVec Ideal S128 .f32) (x7 : FVec Ideal S128x128 .bf16) (x8 : FVec Ideal S128 .f32) :
    k0_pay1 (F := Ideal) x0 x1 x2 x3 x4 x5 x6 x7 x8 = msg x0 x1 x2 x3 x4 x5 x6 x7 x8 := by
  funext j
  obtain ⟨p, c, rfl⟩ : ∃ (p : Fin 5000) (c : Fin 128), j = ix2 p c := ⟨j 0, j 1, eq_ix2 j⟩
  exact pay_at x0 x1 x2 x3 x4 x5 x6 x7 x8 p c

/-- The second region's body is the same arithmetic. -/
theorem pay1_eq (x0 x1 : FVec Ideal S5000x128 .bf16) (x2 : FVec Ideal S5000x32 .bf16) (x3 x4 : FVec Ideal S128x128 .bf16)
    (x5 : FVec Ideal S32x128 .bf16) (x6 : FVec Ideal S128 .f32) (x7 : FVec Ideal S128x128 .bf16) (x8 : FVec Ideal S128 .f32) :
    k1_pay1 (F := Ideal) x0 x1 x2 x3 x4 x5 x6 x7 x8 = msg x0 x1 x2 x3 x4 x5 x6 x7 x8 :=
  pay_eq x0 x1 x2 x3 x4 x5 x6 x7 x8

end Cert.KernelIdeal.Body

end
-- ==== Proof.Region0.lean ====
/-
  What the first edge-network region leaves in its output array.

  The region runs over 100 grid points; point `t` holds edges `5000 t … 5000 t + 4999`: the blocks of the two
  gathered endpoint arrays and of the edge attributes are rows `5000 t …` of those arrays, the weights and biases
  are whole at every point, and the output block is written back to rows `5000 t …` of the output array. The body
  stores the block's messages, and a message depends on the edge arrays through the edge's own rows only, so what
  point `t` writes back is rows `5000 t …` of the array of ALL messages computed from the arrays as the region
  finds them. The 100 blocks tile the 500000 rows (row `r` is in block `r / 5000`), so after the region the output
  array is that array of all messages.
-/
import proofs.«151909_j15006615733821_1_alg».proof.Proof.KernelIdealFrameP
import proofs.«151909_j15006615733821_1_alg».proof.Proof.Body

set_option maxRecDepth 16384

noncomputable section

namespace Cert.KernelIdeal.Region0

open Cert.KernelIdeal Cert.KernelIdeal.Gen Cert.KernelIdeal.GenP Idealize.ShloMosaic Idealize.ShloMosaic.TcCoe
open Idealize.ShloMosaic.ValueIdx Idealize.SL.Sem Cert.EdgeMlp
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- All messages of the round, from the arrays as the region finds them. -/
def G (c : Dev nD) : S500000x128.Idx → EReal :=
  msg (V c main_v19) (V c main_v26) (V c main_v11) (V c main_v5) (V c main_v7) (V c main_v9) (V c main_arg4)
    (V c main_v10) (V c main_arg6)

/-- The index maps over the grid: the three edge inputs and the output move one block of rows per point, the weights
    and biases stay at their one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = 0 ∧ win0_7.index t (1 : Fin 2) = 0
    ∧ win0_8.index t (0 : Fin 1) = 0
    ∧ win0_9.index t (0 : Fin 2) = t.val ∧ win0_9.index t (1 : Fin 2) = 0 :=
  (by decide +kernel : ∀ t : Fin grid0.N, _)

set_option maxHeartbeats 1600000 in
/-- What point `t` writes back is block `t` of the array of all messages. -/
theorem flushed_eq (c : Dev nD) (t : Fin cfg0.N) :
    (dat0 V c).flushed 9 t = ((cfg0.win 9).blk t).view.read (Elt Ideal) (G V c) := by
  show (cfg0.win 9).cut (grid0.coords t) ((dat0 V c).after 9 t) = _
  rw [after0_9]
  unfold out0_9
  rw [View.canon_unit_zero hz2]
  simp only [View.ld_unit_zero (S := S5000x128) hz2, View.ld_unit_zero (S := S5000x32) hz2,
    View.ld_unit_zero (S := S128x128) hz2, View.ld_unit_zero (S := S32x128) hz2, View.ld_unit_zero (S := S128) hz1]
  obtain ⟨e00, e01, e10, e11, e20, e21, e30, e31, e40, e41, e50, e51, e60, e70, e71, e80, e90, e91⟩ := idx_facts t
  -- the weights' and biases' blocks are the whole arrays
  have h3 : iblk0 V c 3 t = V c main_v5 := funext fun y => by
    show V c main_v5 (((cfg0.win 3).blk t).view.emb y) = V c main_v5 y
    refine congrArg _ (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have h4 : iblk0 V c 4 t = V c main_v7 := funext fun y => by
    show V c main_v7 (((cfg0.win 4).blk t).view.emb y) = V c main_v7 y
    refine congrArg _ (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have h5 : iblk0 V c 5 t = V c main_v9 := funext fun y => by
    show V c main_v9 (((cfg0.win 5).blk t).view.emb y) = V c main_v9 y
    refine congrArg _ (funext fun a => Fin.ext ?_)
    match a with
    | ⟨0, _⟩ => show win0_5.index t (0 : Fin 2) * 32 + 1 * (y 0).val = (y 0).val; omega
    | ⟨1, _⟩ => show win0_5.index t (1 : Fin 2) * 128 + 1 * (y 1).val = (y 1).val; omega
  have h6 : iblk0 V c 6 t = V c main_arg4 := funext fun y => by
    show V c main_arg4 (((cfg0.win 6).blk t).view.emb y) = V c main_arg4 y
    refine congrArg _ (funext fun a => Fin.ext ?_)
    match a with
    | ⟨0, _⟩ => show win0_6.index t (0 : Fin 1) * 128 + 1 * (y 0).val = (y 0).val; omega
  have h7 : iblk0 V c 7 t = V c main_v10 := funext fun y => by
    show V c main_v10 (((cfg0.win 7).blk t).view.emb y) = V c main_v10 y
    refine congrArg _ (funext fun a => Fin.ext ?_)
    match a with
    | ⟨0, _⟩ => show win0_7.index t (0 : Fin 2) * 128 + 1 * (y 0).val = (y 0).val; omega
    | ⟨1, _⟩ => show win0_7.index t (1 : Fin 2) * 128 + 1 * (y 1).val = (y 1).val; omega
  have h8 : iblk0 V c 8 t = V c main_arg6 := funext fun y => by
    show V c main_arg6 (((cfg0.win 8).blk t).view.emb y) = V c main_arg6 y
    refine congrArg _ (funext fun a => Fin.ext ?_)
    match a with
    | ⟨0, _⟩ => show win0_8.index t (0 : Fin 1) * 128 + 1 * (y 0).val = (y 0).val; omega
  funext j
  refine (congrFun (Body.pay_eq (iblk0 V c 0 t) (iblk0 V c 1 t) (iblk0 V c 2 t) (iblk0 V c 3 t) (iblk0 V c 4 t)
    (iblk0 V c 5 t) (iblk0 V c 6 t) (iblk0 V c 7 t) (iblk0 V c 8 t)) j).trans ?_
  rw [h3, h4, h5, h6, h7, h8]
  -- the output block's entry `j` sits at row `5000 t + j 0`, channel `j 1` of the array
  have hc : (((cfg0.win 9).blk t).view.emb j) 1 = j 1 := Fin.ext (by
    show win0_9.index t (1 : Fin 2) * 128 + 1 * (j 1).val = (j 1).val; omega)
  show msgAt (iblk0 V c 0 t) (iblk0 V c 1 t) (iblk0 V c 2 t) (V c main_v5) (V c main_v7) (V c main_v9) (V c main_arg4)
      (V c main_v10) (V c main_arg6) (j 0) (j 1)
    = msgAt (V c main_v19) (V c main_v26) (V c main_v11) (V c main_v5) (V c main_v7) (V c main_v9) (V c main_arg4)
      (V c main_v10) (V c main_arg6) ((((cfg0.win 9).blk t).view.emb j) 0) ((((cfg0.win 9).blk t).view.emb j) 1)
  rw [hc]
  refine msgAt_rows _ _ _ _ _ _ _ _ _ _ _ _ (j 0) ((((cfg0.win 9).blk t).view.emb j) 0) (j 1) (fun y => ?_) (fun y => ?_) (fun y => ?_)
  · show V c main_v19 (((cfg0.win 0).blk t).view.emb (ix2 (j 0) y)) = V c main_v19 (ix2 ((((cfg0.win 9).blk t).view.emb j) 0) y)
    refine congrArg _ (funext fun a => Fin.ext ?_)
    match a with
    | ⟨0, _⟩ => show win0_0.index t (0 : Fin 2) * 5000 + 1 * (j 0).val = win0_9.index t (0 : Fin 2) * 5000 + 1 * (j 0).val; omega
    | ⟨1, _⟩ => show win0_0.index t (1 : Fin 2) * 128 + 1 * y.val = y.val; omega
  · show V c main_v26 (((cfg0.win 1).blk t).view.emb (ix2 (j 0) y)) = V c main_v26 (ix2 ((((cfg0.win 9).blk t).view.emb j) 0) y)
    refine congrArg _ (funext fun a => Fin.ext ?_)
    match a with
    | ⟨0, _⟩ => show win0_1.index t (0 : Fin 2) * 5000 + 1 * (j 0).val = win0_9.index t (0 : Fin 2) * 5000 + 1 * (j 0).val; omega
    | ⟨1, _⟩ => show win0_1.index t (1 : Fin 2) * 128 + 1 * y.val = y.val; omega
  · show V c main_v11 (((cfg0.win 2).blk t).view.emb (ix2 (j 0) y)) = V c main_v11 (ix2 ((((cfg0.win 9).blk t).view.emb j) 0) y)
    refine congrArg _ (funext fun a => Fin.ext ?_)
    match a with
    | ⟨0, _⟩ => show win0_2.index t (0 : Fin 2) * 5000 + 1 * (j 0).val = win0_9.index t (0 : Fin 2) * 5000 + 1 * (j 0).val; omega
    | ⟨1, _⟩ => show win0_2.index t (1 : Fin 2) * 32 + 1 * y.val = y.val; omega

/-- An index of the output array is in point `t`'s block iff each coordinate is in the block's range on its axis. -/
theorem mem_blk (t : Fin cfg0.N) (i : S500000x128.Idx) :
    i ∈ ((cfg0.win 9).blk t).view.set ↔ ∀ a : Fin 2, win0_9.index t a * S5000x128.size a ≤ (i a).val
      ∧ (i a).val < win0_9.index t a * S5000x128.size a + S5000x128.size a := by
  show i ∈ ((View.whole main_v27).slice (win0_9.rect t)).set ↔ _
  rw [View.set_slice_whole, Rect.mem_set_unit]
  exact Iff.rfl

/-- Every index of the output array is in some point's block: row `r` in block `r / 5000`. -/
theorem cover (i : S500000x128.Idx) :
    ∃ t : Fin cfg0.N, (cfg0.win 9).flush t = true ∧ i ∈ ((cfg0.win 9).blk t).view.set := by
  have hi0 : (i 0).val < 500000 := (i 0).isLt
  have hi1 : (i 1).val < 128 := (i 1).isLt
  have hN : grid0.N = 100 := N_0
  have ht : (i 0).val / 5000 < cfg0.N := by show (i 0).val / 5000 < grid0.N; rw [hN]; omega
  obtain ⟨-, -, -, -, -, -, -, -, -, -, -, -, -, -, -, -, e90, e91⟩ := idx_facts ⟨(i 0).val / 5000, ht⟩
  have e90' : win0_9.index ⟨(i 0).val / 5000, ht⟩ (0 : Fin 2) = (i 0).val / 5000 := e90
  refine ⟨⟨(i 0).val / 5000, ht⟩, flush0_9 _, ?_⟩
  rw [mem_blk]
  intro a
  match a with
  | ⟨0, _⟩ =>
    show win0_9.index ⟨(i 0).val / 5000, ht⟩ (0 : Fin 2) * 5000 ≤ (i 0).val
      ∧ (i 0).val < win0_9.index ⟨(i 0).val / 5000, ht⟩ (0 : Fin 2) * 5000 + 5000
    rw [e90']; omega
  | ⟨1, _⟩ =>
    show win0_9.index ⟨(i 0).val / 5000, ht⟩ (1 : Fin 2) * 128 ≤ (i 1).val
      ∧ (i 1).val < win0_9.index ⟨(i 0).val / 5000, ht⟩ (1 : Fin 2) * 128 + 128
    rw [e91]; omega

/-- After the region the output array holds all messages of the round. -/
theorem final (c : Dev nD) : (dat0 V c).arrAt 9 cfg0.N = G V c :=
  (dat0 V c).arrAt_eq_of_cover 9 (G V c) (fun t _ => flushed_eq V c t) (cover)

end Cert.KernelIdeal.Region0

end
-- ==== Proof.Region1.lean ====
/-
  What the second edge-network region leaves in its output array.

  The region runs over 100 grid points; point `t` holds edges `5000 t … 5000 t + 4999`: the blocks of the two
  gathered endpoint arrays and of the edge attributes are rows `5000 t …` of those arrays, the weights and biases
  are whole at every point, and the output block is written back to rows `5000 t …` of the output array. The body
  stores the block's messages, and a message depends on the edge arrays through the edge's own rows only, so what
  point `t` writes back is rows `5000 t …` of the array of ALL messages computed from the arrays as the region
  finds them. The 100 blocks tile the 500000 rows (row `r` is in block `r / 5000`), so after the region the output
  array is that array of all messages.
-/
import proofs.«151909_j15006615733821_1_alg».proof.Proof.KernelIdealFrameP
import proofs.«151909_j15006615733821_1_alg».proof.Proof.Body

set_option maxRecDepth 16384

noncomputable section

namespace Cert.KernelIdeal.Region1

open Cert.KernelIdeal Cert.KernelIdeal.Gen Cert.KernelIdeal.GenP Idealize.ShloMosaic Idealize.ShloMosaic.TcCoe
open Idealize.ShloMosaic.ValueIdx Idealize.SL.Sem Cert.EdgeMlp
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- All messages of the round, from the arrays as the region finds them. -/
def G (c : Dev nD) : S500000x128.Idx → EReal :=
  msg (V c main_v39) (V c main_v46) (V c main_v11) (V c main_v5) (V c main_v7) (V c main_v9) (V c main_arg4)
    (V c main_v10) (V c main_arg6)

/-- The index maps over the grid: the three edge inputs and the output move one block of rows per point, the weights
    and biases stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0
    ∧ win1_8.index t (0 : Fin 1) = 0
    ∧ win1_9.index t (0 : Fin 2) = t.val ∧ win1_9.index t (1 : Fin 2) = 0 :=
  (by decide +kernel : ∀ t : Fin grid1.N, _)

set_option maxHeartbeats 1600000 in
/-- What point `t` writes back is block `t` of the array of all messages. -/
theorem flushed_eq (c : Dev nD) (t : Fin cfg1.N) :
    (dat1 V c).flushed 9 t = ((cfg1.win 9).blk t).view.read (Elt Ideal) (G V c) := by
  show (cfg1.win 9).cut (grid1.coords t) ((dat1 V c).after 9 t) = _
  rw [after1_9]
  unfold out1_9
  rw [View.canon_unit_zero hz2]
  simp only [View.ld_unit_zero (S := S5000x128) hz2, View.ld_unit_zero (S := S5000x32) hz2,
    View.ld_unit_zero (S := S128x128) hz2, View.ld_unit_zero (S := S32x128) hz2, View.ld_unit_zero (S := S128) hz1]
  obtain ⟨e00, e01, e10, e11, e20, e21, e30, e31, e40, e41, e50, e51, e60, e70, e71, e80, e90, e91⟩ := idx_facts t
  -- the weights' and biases' blocks are the whole arrays
  have h3 : iblk1 V c 3 t = V c main_v5 := funext fun y => by
    show V c main_v5 (((cfg1.win 3).blk t).view.emb y) = V c main_v5 y
    refine congrArg _ (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have h4 : iblk1 V c 4 t = V c main_v7 := funext fun y => by
    show V c main_v7 (((cfg1.win 4).blk t).view.emb y) = V c main_v7 y
    refine congrArg _ (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have h5 : iblk1 V c 5 t = V c main_v9 := funext fun y => by
    show V c main_v9 (((cfg1.win 5).blk t).view.emb y) = V c main_v9 y
    refine congrArg _ (funext fun a => Fin.ext ?_)
    match a with
    | ⟨0, _⟩ => show win1_5.index t (0 : Fin 2) * 32 + 1 * (y 0).val = (y 0).val; omega
    | ⟨1, _⟩ => show win1_5.index t (1 : Fin 2) * 128 + 1 * (y 1).val = (y 1).val; omega
  have h6 : iblk1 V c 6 t = V c main_arg4 := funext fun y => by
    show V c main_arg4 (((cfg1.win 6).blk t).view.emb y) = V c main_arg4 y
    refine congrArg _ (funext fun a => Fin.ext ?_)
    match a with
    | ⟨0, _⟩ => show win1_6.index t (0 : Fin 1) * 128 + 1 * (y 0).val = (y 0).val; omega
  have h7 : iblk1 V c 7 t = V c main_v10 := funext fun y => by
    show V c main_v10 (((cfg1.win 7).blk t).view.emb y) = V c main_v10 y
    refine congrArg _ (funext fun a => Fin.ext ?_)
    match a with
    | ⟨0, _⟩ => show win1_7.index t (0 : Fin 2) * 128 + 1 * (y 0).val = (y 0).val; omega
    | ⟨1, _⟩ => show win1_7.index t (1 : Fin 2) * 128 + 1 * (y 1).val = (y 1).val; omega
  have h8 : iblk1 V c 8 t = V c main_arg6 := funext fun y => by
    show V c main_arg6 (((cfg1.win 8).blk t).view.emb y) = V c main_arg6 y
    refine congrArg _ (funext fun a => Fin.ext ?_)
    match a with
    | ⟨0, _⟩ => show win1_8.index t (0 : Fin 1) * 128 + 1 * (y 0).val = (y 0).val; omega
  funext j
  refine (congrFun (Body.pay1_eq (iblk1 V c 0 t) (iblk1 V c 1 t) (iblk1 V c 2 t) (iblk1 V c 3 t) (iblk1 V c 4 t)
    (iblk1 V c 5 t) (iblk1 V c 6 t) (iblk1 V c 7 t) (iblk1 V c 8 t)) j).trans ?_
  rw [h3, h4, h5, h6, h7, h8]
  -- the output block's entry `j` sits at row `5000 t + j 0`, channel `j 1` of the array
  have hc : (((cfg1.win 9).blk t).view.emb j) 1 = j 1 := Fin.ext (by
    show win1_9.index t (1 : Fin 2) * 128 + 1 * (j 1).val = (j 1).val; omega)
  show msgAt (iblk1 V c 0 t) (iblk1 V c 1 t) (iblk1 V c 2 t) (V c main_v5) (V c main_v7) (V c main_v9) (V c main_arg4)
      (V c main_v10) (V c main_arg6) (j 0) (j 1)
    = msgAt (V c main_v39) (V c main_v46) (V c main_v11) (V c main_v5) (V c main_v7) (V c main_v9) (V c main_arg4)
      (V c main_v10) (V c main_arg6) ((((cfg1.win 9).blk t).view.emb j) 0) ((((cfg1.win 9).blk t).view.emb j) 1)
  rw [hc]
  refine msgAt_rows _ _ _ _ _ _ _ _ _ _ _ _ (j 0) ((((cfg1.win 9).blk t).view.emb j) 0) (j 1) (fun y => ?_) (fun y => ?_) (fun y => ?_)
  · show V c main_v39 (((cfg1.win 0).blk t).view.emb (ix2 (j 0) y)) = V c main_v39 (ix2 ((((cfg1.win 9).blk t).view.emb j) 0) y)
    refine congrArg _ (funext fun a => Fin.ext ?_)
    match a with
    | ⟨0, _⟩ => show win1_0.index t (0 : Fin 2) * 5000 + 1 * (j 0).val = win1_9.index t (0 : Fin 2) * 5000 + 1 * (j 0).val; omega
    | ⟨1, _⟩ => show win1_0.index t (1 : Fin 2) * 128 + 1 * y.val = y.val; omega
  · show V c main_v46 (((cfg1.win 1).blk t).view.emb (ix2 (j 0) y)) = V c main_v46 (ix2 ((((cfg1.win 9).blk t).view.emb j) 0) y)
    refine congrArg _ (funext fun a => Fin.ext ?_)
    match a with
    | ⟨0, _⟩ => show win1_1.index t (0 : Fin 2) * 5000 + 1 * (j 0).val = win1_9.index t (0 : Fin 2) * 5000 + 1 * (j 0).val; omega
    | ⟨1, _⟩ => show win1_1.index t (1 : Fin 2) * 128 + 1 * y.val = y.val; omega
  · show V c main_v11 (((cfg1.win 2).blk t).view.emb (ix2 (j 0) y)) = V c main_v11 (ix2 ((((cfg1.win 9).blk t).view.emb j) 0) y)
    refine congrArg _ (funext fun a => Fin.ext ?_)
    match a with
    | ⟨0, _⟩ => show win1_2.index t (0 : Fin 2) * 5000 + 1 * (j 0).val = win1_9.index t (0 : Fin 2) * 5000 + 1 * (j 0).val; omega
    | ⟨1, _⟩ => show win1_2.index t (1 : Fin 2) * 32 + 1 * y.val = y.val; omega

/-- An index of the output array is in point `t`'s block iff each coordinate is in the block's range on its axis. -/
theorem mem_blk (t : Fin cfg1.N) (i : S500000x128.Idx) :
    i ∈ ((cfg1.win 9).blk t).view.set ↔ ∀ a : Fin 2, win1_9.index t a * S5000x128.size a ≤ (i a).val
      ∧ (i a).val < win1_9.index t a * S5000x128.size a + S5000x128.size a := by
  show i ∈ ((View.whole main_v47).slice (win1_9.rect t)).set ↔ _
  rw [View.set_slice_whole, Rect.mem_set_unit]
  exact Iff.rfl

/-- Every index of the output array is in some point's block: row `r` in block `r / 5000`. -/
theorem cover (i : S500000x128.Idx) :
    ∃ t : Fin cfg1.N, (cfg1.win 9).flush t = true ∧ i ∈ ((cfg1.win 9).blk t).view.set := by
  have hi0 : (i 0).val < 500000 := (i 0).isLt
  have hi1 : (i 1).val < 128 := (i 1).isLt
  have hN : grid1.N = 100 := N_1
  have ht : (i 0).val / 5000 < cfg1.N := by show (i 0).val / 5000 < grid1.N; rw [hN]; omega
  obtain ⟨-, -, -, -, -, -, -, -, -, -, -, -, -, -, -, -, e90, e91⟩ := idx_facts ⟨(i 0).val / 5000, ht⟩
  have e90' : win1_9.index ⟨(i 0).val / 5000, ht⟩ (0 : Fin 2) = (i 0).val / 5000 := e90
  refine ⟨⟨(i 0).val / 5000, ht⟩, flush1_9 _, ?_⟩
  rw [mem_blk]
  intro a
  match a with
  | ⟨0, _⟩ =>
    show win1_9.index ⟨(i 0).val / 5000, ht⟩ (0 : Fin 2) * 5000 ≤ (i 0).val
      ∧ (i 0).val < win1_9.index ⟨(i 0).val / 5000, ht⟩ (0 : Fin 2) * 5000 + 5000
    rw [e90']; omega
  | ⟨1, _⟩ =>
    show win1_9.index ⟨(i 0).val / 5000, ht⟩ (1 : Fin 2) * 128 ≤ (i 1).val
      ∧ (i 1).val < win1_9.index ⟨(i 0).val / 5000, ht⟩ (1 : Fin 2) * 128 + 128
    rw [e91]; omega

/-- After the region the output array holds all messages of the round. -/
theorem final (c : Dev nD) : (dat1 V c).arrAt 9 cfg1.N = G V c :=
  (dat1 V c).arrAt_eq_of_cover 9 (G V c) (fun t _ => flushed_eq V c t) (cover)

end Cert.KernelIdeal.Region1

end
-- ==== Proof.KernelValue.lean ====
/-
  The idealized kernel's result as two rounds of message passing.

  The last boundary's contents at the result buffer are read back through @main: the last stretch of host operations
  adds the second region's messages, scatter-added at each edge's second endpoint, to the node features after the first
  round, and then the output bias; the second region's output array is the array of all messages computed from what the
  second stretch gathers out of those node features; the second stretch forms those node features from the input
  features and the first region's output array, which is the array of all messages computed from what the first stretch
  gathers out of the input features. A buffer no operation of a stretch writes keeps its contents through it, an
  input window's array keeps its contents through a region, and a buffer that is no window's array is untouched by it.
  Changes of float format are the identity on the extended reals, so they stay in the terms only as written.
-/
import proofs.«151909_j15006615733821_1_alg».proof.Proof.KernelIdealFrameP
import proofs.«151909_j15006615733821_1_alg».proof.Proof.Region0
import proofs.«151909_j15006615733821_1_alg».proof.Proof.Region1

set_option maxRecDepth 16384

noncomputable section

namespace Cert.KernelIdeal.KernelValue

open Cert.KernelIdeal Cert.KernelIdeal.Gen Cert.KernelIdeal.GenP Idealize.ShloMosaic Idealize.ShloMosaic.TcCoe
open Idealize.ShloMosaic.StableHlo Idealize.SL.Sem Cert.EdgeMlp
open Idealize.ShloMosaic.Pipeline (Dat Cfg Window)

/-! ## The host operations, grouped -/

/-- The first endpoint of every edge: row 0 of the edge-index array. -/
def ends0 (x1 : IVec S2x500000 32) : IVec S500000 32 :=
  shapeCast _ (extractStridedSlice S1x500000 ![0, 0] x1 slices_S2x500000_S1x500000_0_0) shapeCasts_S1x500000_S500000
/-- The second endpoint of every edge: row 1 of the edge-index array. -/
def ends1 (x1 : IVec S2x500000 32) : IVec S500000 32 :=
  shapeCast _ (extractStridedSlice S1x500000 ![1, 0] x1 slices_S2x500000_S1x500000_1_0) shapeCasts_S1x500000_S500000
/-- An endpoint list as a gather index column: a negative entry is moved up by the node count. -/
def idxCol (e : IVec S500000 32) : IVec S500000x1 32 :=
  broadcastInDim S500000x1 ![0] bcast_S500000_S500000x1_0
    (select (cmpi .slt e (broadcastInDim S500000 ![] bcast_S_S500000 (constantI S_ 32 0#32)))
      (addi e (broadcastInDim S500000 ![] bcast_S_S500000 (constantI S_ 32 100000#32))) e)
/-- An endpoint list as a scatter index column, as it stands. -/
def scatCol (e : IVec S500000 32) : IVec S500000x1 32 :=
  broadcastInDim S500000x1 ![0] bcast_S500000_S500000x1_0 e
/-- The zero node array the messages are scattered into. -/
def zeros : FVec Ideal S100000x128 .f32 :=
  broadcastInDim S100000x128 ![] bcast_S_S100000x128 (constant (F := Ideal) S_ .f32 0x00000000#32)
/-- The first weight's rows 0–127. -/
def band0 (x3 : FVec Ideal S288x128 .f32) : FVec Ideal S128x128 .f32 :=
  extractStridedSlice S128x128 ![0, 0] x3 slices_S288x128_S128x128_0_0
/-- The first weight's rows 128–255. -/
def band1 (x3 : FVec Ideal S288x128 .f32) : FVec Ideal S128x128 .f32 :=
  extractStridedSlice S128x128 ![128, 0] x3 slices_S288x128_S128x128_128_0
/-- The first weight's rows 256–287. -/
def band2 (x3 : FVec Ideal S288x128 .f32) : FVec Ideal S32x128 .f32 :=
  extractStridedSlice S32x128 ![256, 0] x3 slices_S288x128_S32x128_256_0

/-- An array passed through the change of float format the kernel applies to its matrix operands (the identity on the
    extended reals; kept as written). -/
def cast16 {s : Shape} (x : FVec Ideal s .f32) : FVec Ideal s .bf16 := truncf .bf16 x bitsLt_bf16_f32

/-- All messages of a round from the node features `h`: the edge network on the features gathered at both endpoint
    columns, the edge attributes and the weights. -/
def kmsg (x1 : IVec S2x500000 32) (x2 : FVec Ideal S500000x32 .f32) (x3 : FVec Ideal S288x128 .f32) (x4 : FVec Ideal S128 .f32)
    (x5 : FVec Ideal S128x128 .f32) (x6 : FVec Ideal S128 .f32) (h : FVec Ideal S100000x128 .f32) : FVec Ideal S500000x128 .f32 :=
  msg (Host.gather gather_S100000x128_S500000x1_S500000x128_1_0_n_n_0_1_1128 (cast16 h) (idxCol (ends0 x1)))
    (Host.gather gather_S100000x128_S500000x1_S500000x128_1_0_n_n_0_1_1128 (cast16 h) (idxCol (ends1 x1)))
    (cast16 x2) (cast16 (band0 x3)) (cast16 (band1 x3)) (cast16 (band2 x3)) x4 (cast16 x5) x6

/-- One round: the node features plus the messages of all edges summed at each edge's second endpoint. -/
def step (x1 : IVec S2x500000 32) (x2 : FVec Ideal S500000x32 .f32) (x3 : FVec Ideal S288x128 .f32) (x4 : FVec Ideal S128 .f32)
    (x5 : FVec Ideal S128x128 .f32) (x6 : FVec Ideal S128 .f32) (h : FVec Ideal S100000x128 .f32) : FVec Ideal S100000x128 .f32 :=
  addf h (Host.scatterAdd scatter_S100000x128_S500000x1_S500000x128_1_0_0_1 zeros (scatCol (ends1 x1)) (kmsg x1 x2 x3 x4 x5 x6 h))

/-- Two rounds and the output bias. -/
def result (x0 : FVec Ideal S100000x128 .f32) (x1 : IVec S2x500000 32) (x2 : FVec Ideal S500000x32 .f32) (x3 : FVec Ideal S288x128 .f32)
    (x4 : FVec Ideal S128 .f32) (x5 : FVec Ideal S128x128 .f32) (x6 : FVec Ideal S128 .f32) (x7 : FVec Ideal S128 .f32) :
    FVec Ideal S100000x128 .f32 :=
  addf (step x1 x2 x3 x4 x5 x6 (step x1 x2 x3 x4 x5 x6 x0))
    (broadcastInDim S100000x128 ![0, 1] bcast_S1x128_S100000x128_0_1 (broadcastInDim S1x128 ![1] bcast_S128_S1x128_1 x7))

variable (m : (ℓ : Loc nD τ sig) → Buf (Elt Ideal) ℓ) (ρ : Dev nD → PrngReg) (c : Dev nD)

/-! ## At the first region's entry: the first stretch from the launch memory -/

theorem w1_v19 : W1 m ρ c (Proc.devRef .tc main_v19) = (Host.gather gather_S100000x128_S500000x1_S500000x128_1_0_n_n_0_1_1128 (cast16 (m ((c : Thread nD τ).loc main_arg0))) (idxCol (ends0 (m ((c : Thread nD τ).loc main_arg1)))) : FVec Ideal S500000x128 .bf16) := by
  show StableHlo.after hostOps0 (W0 m ρ c) (Proc.devRef .tc main_v19) = _
  after_results_simp
  try rfl

theorem w1_v26 : W1 m ρ c (Proc.devRef .tc main_v26) = (Host.gather gather_S100000x128_S500000x1_S500000x128_1_0_n_n_0_1_1128 (cast16 (m ((c : Thread nD τ).loc main_arg0))) (idxCol (ends1 (m ((c : Thread nD τ).loc main_arg1)))) : FVec Ideal S500000x128 .bf16) := by
  show StableHlo.after hostOps0 (W0 m ρ c) (Proc.devRef .tc main_v26) = _
  after_results_simp
  try rfl

theorem w1_v11 : W1 m ρ c (Proc.devRef .tc main_v11) = ((cast16 (m ((c : Thread nD τ).loc main_arg2))) : FVec Ideal S500000x32 .bf16) := by
  show StableHlo.after hostOps0 (W0 m ρ c) (Proc.devRef .tc main_v11) = _
  after_results_simp
  try rfl

theorem w1_v5 : W1 m ρ c (Proc.devRef .tc main_v5) = ((cast16 (band0 (m ((c : Thread nD τ).loc main_arg3)))) : FVec Ideal S128x128 .bf16) := by
  show StableHlo.after hostOps0 (W0 m ρ c) (Proc.devRef .tc main_v5) = _
  after_results_simp
  try rfl

theorem w1_v7 : W1 m ρ c (Proc.devRef .tc main_v7) = ((cast16 (band1 (m ((c : Thread nD τ).loc main_arg3)))) : FVec Ideal S128x128 .bf16) := by
  show StableHlo.after hostOps0 (W0 m ρ c) (Proc.devRef .tc main_v7) = _
  after_results_simp
  try rfl

theorem w1_v9 : W1 m ρ c (Proc.devRef .tc main_v9) = ((cast16 (band2 (m ((c : Thread nD τ).loc main_arg3)))) : FVec Ideal S32x128 .bf16) := by
  show StableHlo.after hostOps0 (W0 m ρ c) (Proc.devRef .tc main_v9) = _
  after_results_simp
  try rfl

theorem w1_arg4 : W1 m ρ c (Proc.devRef .tc main_arg4) = (m ((c : Thread nD τ).loc main_arg4)) := by
  show StableHlo.after hostOps0 (W0 m ρ c) (Proc.devRef .tc main_arg4) = _
  after_results_simp
  try rfl

theorem w1_v10 : W1 m ρ c (Proc.devRef .tc main_v10) = ((cast16 (m ((c : Thread nD τ).loc main_arg5))) : FVec Ideal S128x128 .bf16) := by
  show StableHlo.after hostOps0 (W0 m ρ c) (Proc.devRef .tc main_v10) = _
  after_results_simp
  try rfl

theorem w1_arg6 : W1 m ρ c (Proc.devRef .tc main_arg6) = (m ((c : Thread nD τ).loc main_arg6)) := by
  show StableHlo.after hostOps0 (W0 m ρ c) (Proc.devRef .tc main_arg6) = _
  after_results_simp
  try rfl

theorem w1_v1 : W1 m ρ c (Proc.devRef .tc main_v1) = (ends0 (m ((c : Thread nD τ).loc main_arg1)) : IVec S500000 32) := by
  show StableHlo.after hostOps0 (W0 m ρ c) (Proc.devRef .tc main_v1) = _
  after_results_simp
  try rfl

theorem w1_v3 : W1 m ρ c (Proc.devRef .tc main_v3) = (ends1 (m ((c : Thread nD τ).loc main_arg1)) : IVec S500000 32) := by
  show StableHlo.after hostOps0 (W0 m ρ c) (Proc.devRef .tc main_v3) = _
  after_results_simp
  try rfl

theorem w1_arg0 : W1 m ρ c (Proc.devRef .tc main_arg0) = (m ((c : Thread nD τ).loc main_arg0)) := by
  show StableHlo.after hostOps0 (W0 m ρ c) (Proc.devRef .tc main_arg0) = _
  after_results_simp
  try rfl

theorem w1_arg7 : W1 m ρ c (Proc.devRef .tc main_arg7) = (m ((c : Thread nD τ).loc main_arg7)) := by
  show StableHlo.after hostOps0 (W0 m ρ c) (Proc.devRef .tc main_arg7) = _
  after_results_simp
  try rfl

/-! ## Through the first region -/

theorem w2_v11 : W2 m ρ c (Proc.devRef .tc main_v11) = W1 m ρ c (Proc.devRef .tc main_v11) :=
  (W2_arr m ρ c 2).trans (((dat0 (V1 m ρ) c).arrAt_in 2 rfl _).trans (A_eq0 (V1 m ρ) c 2))

theorem w2_v5 : W2 m ρ c (Proc.devRef .tc main_v5) = W1 m ρ c (Proc.devRef .tc main_v5) :=
  (W2_arr m ρ c 3).trans (((dat0 (V1 m ρ) c).arrAt_in 3 rfl _).trans (A_eq0 (V1 m ρ) c 3))

theorem w2_v7 : W2 m ρ c (Proc.devRef .tc main_v7) = W1 m ρ c (Proc.devRef .tc main_v7) :=
  (W2_arr m ρ c 4).trans (((dat0 (V1 m ρ) c).arrAt_in 4 rfl _).trans (A_eq0 (V1 m ρ) c 4))

theorem w2_v9 : W2 m ρ c (Proc.devRef .tc main_v9) = W1 m ρ c (Proc.devRef .tc main_v9) :=
  (W2_arr m ρ c 5).trans (((dat0 (V1 m ρ) c).arrAt_in 5 rfl _).trans (A_eq0 (V1 m ρ) c 5))

theorem w2_arg4 : W2 m ρ c (Proc.devRef .tc main_arg4) = W1 m ρ c (Proc.devRef .tc main_arg4) :=
  (W2_arr m ρ c 6).trans (((dat0 (V1 m ρ) c).arrAt_in 6 rfl _).trans (A_eq0 (V1 m ρ) c 6))

theorem w2_v10 : W2 m ρ c (Proc.devRef .tc main_v10) = W1 m ρ c (Proc.devRef .tc main_v10) :=
  (W2_arr m ρ c 7).trans (((dat0 (V1 m ρ) c).arrAt_in 7 rfl _).trans (A_eq0 (V1 m ρ) c 7))

theorem w2_arg6 : W2 m ρ c (Proc.devRef .tc main_arg6) = W1 m ρ c (Proc.devRef .tc main_arg6) :=
  (W2_arr m ρ c 8).trans (((dat0 (V1 m ρ) c).arrAt_in 8 rfl _).trans (A_eq0 (V1 m ρ) c 8))

theorem w2_v1 : W2 m ρ c (Proc.devRef .tc main_v1) = W1 m ρ c (Proc.devRef .tc main_v1) := W2_of_ne m ρ c main_v1 (by decide)

theorem w2_v3 : W2 m ρ c (Proc.devRef .tc main_v3) = W1 m ρ c (Proc.devRef .tc main_v3) := W2_of_ne m ρ c main_v3 (by decide)

theorem w2_arg0 : W2 m ρ c (Proc.devRef .tc main_arg0) = W1 m ρ c (Proc.devRef .tc main_arg0) := W2_of_ne m ρ c main_arg0 (by decide)

theorem w2_arg7 : W2 m ρ c (Proc.devRef .tc main_arg7) = W1 m ρ c (Proc.devRef .tc main_arg7) := W2_of_ne m ρ c main_arg7 (by decide)

/-- The first region's output array: all messages of the first round. -/
theorem w2_v27 : W2 m ρ c (Proc.devRef .tc main_v27) = kmsg (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg0)) := by
  refine ((W2_arr m ρ c 9).trans (Region0.final (V1 m ρ) c)).trans ?_
  show msg (W1 m ρ c (Proc.devRef .tc main_v19)) (W1 m ρ c (Proc.devRef .tc main_v26)) (W1 m ρ c (Proc.devRef .tc main_v11)) (W1 m ρ c (Proc.devRef .tc main_v5))
    (W1 m ρ c (Proc.devRef .tc main_v7)) (W1 m ρ c (Proc.devRef .tc main_v9)) (W1 m ρ c (Proc.devRef .tc main_arg4)) (W1 m ρ c (Proc.devRef .tc main_v10))
    (W1 m ρ c (Proc.devRef .tc main_arg6)) = _
  rw [w1_v19, w1_v26, w1_v11, w1_v5, w1_v7, w1_v9, w1_arg4, w1_v10, w1_arg6]
  rfl

/-! ## At the second region's entry: the second stretch -/

/-- The node features after the first round. -/
theorem w3_v31 : W3 m ρ c (Proc.devRef .tc main_v31) = step (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg0)) := by
  show StableHlo.after hostOps1 (W2 m ρ c) (Proc.devRef .tc main_v31) = _
  after_results_simp
  rw [w2_arg0, w1_arg0, w2_v3, w1_v3, w2_v27]
  rfl
theorem w3_v39 : W3 m ρ c (Proc.devRef .tc main_v39)
    = Host.gather gather_S100000x128_S500000x1_S500000x128_1_0_n_n_0_1_1128 (cast16 (step (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg0)))) (idxCol (ends0 (m ((c : Thread nD τ).loc main_arg1)))) := by
  show StableHlo.after hostOps1 (W2 m ρ c) (Proc.devRef .tc main_v39) = _
  after_results_simp
  rw [w2_arg0, w1_arg0, w2_v3, w1_v3, w2_v27, w2_v1, w1_v1]
  rfl
theorem w3_v46 : W3 m ρ c (Proc.devRef .tc main_v46)
    = Host.gather gather_S100000x128_S500000x1_S500000x128_1_0_n_n_0_1_1128 (cast16 (step (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg0)))) (idxCol (ends1 (m ((c : Thread nD τ).loc main_arg1)))) := by
  show StableHlo.after hostOps1 (W2 m ρ c) (Proc.devRef .tc main_v46) = _
  after_results_simp
  rw [w2_arg0, w1_arg0, w2_v3, w1_v3, w2_v27]
  rfl
theorem w3_v11 : W3 m ρ c (Proc.devRef .tc main_v11) = W2 m ρ c (Proc.devRef .tc main_v11) := by
  show StableHlo.after hostOps1 (W2 m ρ c) (Proc.devRef .tc main_v11) = _
  after_results_simp

theorem w3_v5 : W3 m ρ c (Proc.devRef .tc main_v5) = W2 m ρ c (Proc.devRef .tc main_v5) := by
  show StableHlo.after hostOps1 (W2 m ρ c) (Proc.devRef .tc main_v5) = _
  after_results_simp

theorem w3_v7 : W3 m ρ c (Proc.devRef .tc main_v7) = W2 m ρ c (Proc.devRef .tc main_v7) := by
  show StableHlo.after hostOps1 (W2 m ρ c) (Proc.devRef .tc main_v7) = _
  after_results_simp

theorem w3_v9 : W3 m ρ c (Proc.devRef .tc main_v9) = W2 m ρ c (Proc.devRef .tc main_v9) := by
  show StableHlo.after hostOps1 (W2 m ρ c) (Proc.devRef .tc main_v9) = _
  after_results_simp

theorem w3_arg4 : W3 m ρ c (Proc.devRef .tc main_arg4) = W2 m ρ c (Proc.devRef .tc main_arg4) := by
  show StableHlo.after hostOps1 (W2 m ρ c) (Proc.devRef .tc main_arg4) = _
  after_results_simp

theorem w3_v10 : W3 m ρ c (Proc.devRef .tc main_v10) = W2 m ρ c (Proc.devRef .tc main_v10) := by
  show StableHlo.after hostOps1 (W2 m ρ c) (Proc.devRef .tc main_v10) = _
  after_results_simp

theorem w3_arg6 : W3 m ρ c (Proc.devRef .tc main_arg6) = W2 m ρ c (Proc.devRef .tc main_arg6) := by
  show StableHlo.after hostOps1 (W2 m ρ c) (Proc.devRef .tc main_arg6) = _
  after_results_simp

theorem w3_v3 : W3 m ρ c (Proc.devRef .tc main_v3) = W2 m ρ c (Proc.devRef .tc main_v3) := by
  show StableHlo.after hostOps1 (W2 m ρ c) (Proc.devRef .tc main_v3) = _
  after_results_simp

theorem w3_arg7 : W3 m ρ c (Proc.devRef .tc main_arg7) = W2 m ρ c (Proc.devRef .tc main_arg7) := by
  show StableHlo.after hostOps1 (W2 m ρ c) (Proc.devRef .tc main_arg7) = _
  after_results_simp

/-! ## Through the second region -/

theorem w4_v31 : W4 m ρ c (Proc.devRef .tc main_v31) = W3 m ρ c (Proc.devRef .tc main_v31) := W4_of_ne m ρ c main_v31 (by decide)

theorem w4_v3 : W4 m ρ c (Proc.devRef .tc main_v3) = W3 m ρ c (Proc.devRef .tc main_v3) := W4_of_ne m ρ c main_v3 (by decide)

theorem w4_arg7 : W4 m ρ c (Proc.devRef .tc main_arg7) = W3 m ρ c (Proc.devRef .tc main_arg7) := W4_of_ne m ρ c main_arg7 (by decide)

/-- The second region's output array: all messages of the second round. -/
theorem w4_v47 : W4 m ρ c (Proc.devRef .tc main_v47) = kmsg (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (step (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg0))) := by
  refine ((W4_arr m ρ c 9).trans (Region1.final (V3 m ρ) c)).trans ?_
  show msg (W3 m ρ c (Proc.devRef .tc main_v39)) (W3 m ρ c (Proc.devRef .tc main_v46)) (W3 m ρ c (Proc.devRef .tc main_v11)) (W3 m ρ c (Proc.devRef .tc main_v5))
    (W3 m ρ c (Proc.devRef .tc main_v7)) (W3 m ρ c (Proc.devRef .tc main_v9)) (W3 m ρ c (Proc.devRef .tc main_arg4)) (W3 m ρ c (Proc.devRef .tc main_v10))
    (W3 m ρ c (Proc.devRef .tc main_arg6)) = _
  rw [w3_v39, w3_v46, w3_v11, w2_v11, w1_v11, w3_v5, w2_v5, w1_v5, w3_v7, w2_v7, w1_v7, w3_v9, w2_v9, w1_v9,
    w3_arg4, w2_arg4, w1_arg4, w3_v10, w2_v10, w1_v10, w3_arg6, w2_arg6, w1_arg6]
  rfl

/-! ## The result -/

/-- The result buffer's contents at the end: two rounds from the input features, plus the output bias. -/
theorem w5_v54 : W5 m ρ c (Proc.devRef .tc main_v54)
    = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  show StableHlo.after hostOps2 (W4 m ρ c) (Proc.devRef .tc main_v54) = _
  after_results_simp
  rw [w4_v31, w3_v31, w4_v3, w3_v3, w2_v3, w1_v3, w4_v47, w4_arg7, w3_arg7, w2_arg7, w1_arg7]
  rfl

end Cert.KernelIdeal.KernelValue

end
-- ==== Proof.LibPlainDot.lean ====
/-
  The host's plain matrix product, read at an entry.

  For a `dot_general` whose dimension numbers contract the left operand's columns against the right operand's
  rows, with no batch axis — `[M, K] × [K, N] → [M, N]` — the product on the host is, at the extended reals, the
  textbook sum: entry `(p, c)` is the sum over `k` of `lhs (p, k) · rhs (k, c)`. As for a kernel's product into a
  zero accumulator, the dimension numbers enter only through four coordinate facts about the dot's operand indices
  and the fact that exactly one axis, of extent `K`, is contracted; the lemma is general in the extents, the element
  types and the contraction precision.
-/
import Idealize.ShloMosaic.PureOps.Ideal.Laws
import Idealize.ShloMosaic.Lib.ValueIdx

noncomputable section

namespace Cert.LibPlainDot

open Idealize.ShloMosaic Idealize.ShloMosaic.ValueIdx
open scoped BigOperators

/-- Entry `(p, c)` of the host's `lhs · rhs` is `Σ k, lhs (p, k) · rhs (k, c)`: the dot's sum over its one-axis
    contraction index, re-indexed along the bijection of that index with `Fin K`, each operand index then identified
    by its two coordinates. -/
theorem dotGeneral_ix2 {M K N : ℕ} {φ₁ φ₂ : FTy}
    (D : DotDims ⟨2, ![M, K]⟩ ⟨2, ![K, N]⟩ ⟨2, ![M, N]⟩) (prec : Option ContractPrecision)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (lhs : FVec Ideal ⟨2, ![M, K]⟩ φ₁) (rhs : FVec Ideal ⟨2, ![K, N]⟩ φ₂) (p : Fin M) (c : Fin N) :
    Host.dotGeneral D prec lhs rhs (ix2 p c) = ∑ k : Fin K, lhs (ix2 p k) * rhs (ix2 k c) := by
  simp only [Host.dotGeneral]
  rw [Ideal.dotGeneral_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.LibPlainDot

end
-- ==== Proof.RefMlp.lean ====
/-
  The reference's edge network, read at an entry.

  The reference concatenates the two gathered endpoint arrays and the edge attributes along the channels
  (`[E, 128 + 128 + 32]`), multiplies by the whole first weight, adds the first bias (cast to one row and broadcast
  over the edges), takes the maximum with zero, multiplies by the second weight and adds the second bias. At the
  extended reals each product is the textbook sum, the concatenation read at column `j` is the piece whose span
  holds `j`, and the sum over the 288 concatenated columns is the sum of the three pieces' sums: so entry `(p, c)`
  is the message `EdgeMlp.msgAt` of edge `p` at channel `c`, the first weight's three row bands being its rows
  0–127, 128–255 and 256–287.
-/
import proofs.«151909_j15006615733821_1_alg».proof.Proof.Gen.ReferenceIdeal.Read
import proofs.«151909_j15006615733821_1_alg».proof.Proof.EdgeMlp
import proofs.«151909_j15006615733821_1_alg».proof.Proof.LibPlainDot
import Idealize.ShloMosaic.Lib.Pipeline.Value
import Idealize.ShloMosaic.Lib.ValueLayout

noncomputable section

namespace Cert.ReferenceIdeal.RefMlp

open Cert.ReferenceIdeal Cert.ReferenceIdeal.Gen Idealize.ShloMosaic Idealize.ShloMosaic.ValueIdx Cert.EdgeMlp
open scoped BigOperators

/-- The three arrays as the list of pieces a concatenation takes. -/
abbrev pieces (hi hj : FVec Ideal S500000x128 .f32) (ea : FVec Ideal S500000x32 .f32) : List ((s : Shape) × (s.Idx → EReal)) :=
  [⟨S500000x128, hi⟩, ⟨S500000x128, hj⟩, ⟨S500000x32, ea⟩]

/-- The three arrays laid side by side along the channels. -/
def cat (hi hj : FVec Ideal S500000x128 .f32) (ea : FVec Ideal S500000x32 .f32) : FVec Ideal S500000x288 .f32 :=
  concatenate S500000x288 1 (pieces hi hj ea) concatenates_S500000x128_S500000x128_S500000x32_S500000x288_d1

/-- A 128-vector as one row, broadcast over the 500000 edges. -/
def biasRows (b : FVec Ideal S128 .f32) : FVec Ideal S500000x128 .f32 :=
  broadcastInDim S500000x128 ![0, 1] bcast_S1x128_S500000x128_0_1 (broadcastInDim S1x128 ![1] bcast_S128_S1x128_1 b)

/-- The reference's edge network, operation by operation as the reference applies them. -/
def refMlp (hi hj : FVec Ideal S500000x128 .f32) (ea : FVec Ideal S500000x32 .f32) (w1 : FVec Ideal S288x128 .f32)
    (b1 : FVec Ideal S128 .f32) (w2 : FVec Ideal S128x128 .f32) (b2 : FVec Ideal S128 .f32) : FVec Ideal S500000x128 .f32 :=
  addf (Host.dotGeneral dot_S500000x128_S128x128_S500000x128_1_0_0_1_n_n none
      (maximumf (addf (Host.dotGeneral dot_S500000x288_S288x128_S500000x128_1_0_0_1_n_n none (cat hi hj ea) w1) (biasRows b1))
        (broadcastInDim S500000x128 ![] bcast_S_S500000x128 (constant (F := Ideal) S_ .f32 0x00000000#32))) w2)
    (biasRows b2)

/-- The bias rows at `(p, k)`: the bias at `k`. -/
theorem biasRows_apply (b : FVec Ideal S128 .f32) (p : Fin 500000) (k : Fin 128) : biasRows b (ix2 p k) = b (ix1 k) := by
  unfold biasRows
  refine (broadcastInDim_apply _ bcast_S1x128_S500000x128_0_1 _ (ix2 p k) (ix2 (0 : Fin 1) k) (fun a => match a with
    | ⟨0, _⟩ => by show 0 = if (1 : Nat) = 1 then 0 else p.val; rw [if_pos rfl]
    | ⟨1, _⟩ => by show k.val = if (128 : Nat) = 1 then 0 else k.val; rw [if_neg (by decide)])).trans ?_
  exact broadcastInDim_apply _ bcast_S128_S1x128_1 b (ix2 (0 : Fin 1) k) (ix1 k) (fun a => match a with
    | ⟨0, _⟩ => by show k.val = if (128 : Nat) = 1 then 0 else k.val; rw [if_neg (by decide)])

/-- The concatenation at a column below 128: the first array. -/
theorem cat_fst (hi hj : FVec Ideal S500000x128 .f32) (ea : FVec Ideal S500000x32 .f32) (p : Fin 500000) (j : Fin 128) :
    cat hi hj ea (ix2 p ⟨j.val, by have := j.isLt; omega⟩) = hi (ix2 p j) := by
  unfold cat
  refine concatenate_apply_piece (t := S500000x288) (1 : Fin 2) (pieces hi hj ea) concatenates_S500000x128_S500000x128_S500000x32_S500000x288_d1 _ 0 (by decide : 0 < 3) S500000x128 hi rfl rfl 0 rfl (ix2 p j) (fun b hb => ?_) ?_
  · match b with
    | ⟨0, _⟩ => rfl
    | ⟨1, _⟩ => exact absurd rfl hb
  · show 0 + j.val = j.val
    omega

/-- The concatenation at a column from 128 to 255: the second array. -/
theorem cat_snd (hi hj : FVec Ideal S500000x128 .f32) (ea : FVec Ideal S500000x32 .f32) (p : Fin 500000) (j : Fin 128) :
    cat hi hj ea (ix2 p ⟨128 + j.val, by have := j.isLt; omega⟩) = hj (ix2 p j) := by
  unfold cat
  refine concatenate_apply_piece (t := S500000x288) (1 : Fin 2) (pieces hi hj ea) concatenates_S500000x128_S500000x128_S500000x32_S500000x288_d1 _ 1 (by decide : 1 < 3) S500000x128 hj rfl rfl 128 rfl (ix2 p j) (fun b hb => ?_) ?_
  · match b with
    | ⟨0, _⟩ => rfl
    | ⟨1, _⟩ => exact absurd rfl hb
  · show 128 + j.val = 128 + j.val
    rfl

/-- The concatenation at a column from 256 on: the edge attributes. -/
theorem cat_thd (hi hj : FVec Ideal S500000x128 .f32) (ea : FVec Ideal S500000x32 .f32) (p : Fin 500000) (j : Fin 32) :
    cat hi hj ea (ix2 p ⟨256 + j.val, by have := j.isLt; omega⟩) = ea (ix2 p j) := by
  unfold cat
  refine concatenate_apply_piece (t := S500000x288) (1 : Fin 2) (pieces hi hj ea) concatenates_S500000x128_S500000x128_S500000x32_S500000x288_d1 _ 2 (by decide : 2 < 3) S500000x32 ea rfl rfl 256 rfl (ix2 p j) (fun b hb => ?_) ?_
  · match b with
    | ⟨0, _⟩ => rfl
    | ⟨1, _⟩ => exact absurd rfl hb
  · show 256 + j.val = 256 + j.val
    rfl

/-- The first product at `(p, k)`: the sum over the 288 concatenated columns. -/
theorem dot288 (l : FVec Ideal S500000x288 .f32) (r : FVec Ideal S288x128 .f32) (p : Fin 500000) (k : Fin 128) :
    Host.dotGeneral dot_S500000x288_S288x128_S500000x128_1_0_0_1_n_n none l r (ix2 p k)
      = ∑ j : Fin 288, l (ix2 p j) * r (ix2 j k) :=
  Cert.LibPlainDot.dotGeneral_ix2 dot_S500000x288_S288x128_S500000x128_1_0_0_1_n_n none rfl rfl
    Read.lhs_main_v19_0 Read.lhs_main_v19_1 Read.rhs_main_v19_0 Read.rhs_main_v19_1 l r p k

/-- The second product at `(p, c)`: the sum over the 128 hidden units. -/
theorem dot128 (l : FVec Ideal S500000x128 .f32) (r : FVec Ideal S128x128 .f32) (p : Fin 500000) (c : Fin 128) :
    Host.dotGeneral dot_S500000x128_S128x128_S500000x128_1_0_0_1_n_n none l r (ix2 p c)
      = ∑ k : Fin 128, l (ix2 p k) * r (ix2 k c) :=
  Cert.LibPlainDot.dotGeneral_ix2 dot_S500000x128_S128x128_S500000x128_1_0_0_1_n_n none rfl rfl
    Read.lhs_main_v24_0 Read.lhs_main_v24_1 Read.rhs_main_v24_0 Read.rhs_main_v24_1 l r p c

/-- Entry `(p, c)` of the reference's edge network is the message of edge `p` at channel `c`, for any three arrays
    `wa`, `wb`, `wc` that are the first weight's rows 0–127, 128–255 and 256–287. -/
theorem refMlp_at (hi hj : FVec Ideal S500000x128 .f32) (ea : FVec Ideal S500000x32 .f32) (w1 : FVec Ideal S288x128 .f32)
    (b1 : FVec Ideal S128 .f32) (w2 : FVec Ideal S128x128 .f32) (b2 : FVec Ideal S128 .f32)
    (wa wb : Mat 128 128) (wc : Mat 32 128)
    (hwa : ∀ (j k : Fin 128), w1 (ix2 ⟨j.val, by have := j.isLt; omega⟩ k) = wa (ix2 j k))
    (hwb : ∀ (j k : Fin 128), w1 (ix2 ⟨128 + j.val, by have := j.isLt; omega⟩ k) = wb (ix2 j k))
    (hwc : ∀ (j : Fin 32) (k : Fin 128), w1 (ix2 ⟨256 + j.val, by have := j.isLt; omega⟩ k) = wc (ix2 j k))
    (p : Fin 500000) (c : Fin 128) :
    refMlp hi hj ea w1 b1 w2 b2 (ix2 p c) = msgAt hi hj ea wa wb wc b1 w2 b2 p c := by
  unfold refMlp msgAt
  refine congrArg₂ (· + ·) ?_ (biasRows_apply b2 p c)
  refine (dot128 _ w2 p c).trans (Finset.sum_congr rfl fun k _ => congrArg (· * w2 (ix2 k c)) ?_)
  refine congrArg (max · (Ideal.ofBits .f32 0x00000000#32)) ?_
  refine Eq.trans ?_ (hiddenCat_eq (cat hi hj ea) w1 b1 hi hj ea wa wb wc p k (cat_fst hi hj ea p) (cat_snd hi hj ea p)
    (cat_thd hi hj ea p) (fun j => hwa j k) (fun j => hwb j k) (fun j => hwc j k))
  unfold hiddenCat
  exact congrArg₂ (· + ·) (dot288 (cat hi hj ea) w1 p k) (biasRows_apply b1 p k)

/-- The reference's edge network is the array of all messages. -/
theorem refMlp_eq (hi hj : FVec Ideal S500000x128 .f32) (ea : FVec Ideal S500000x32 .f32) (w1 : FVec Ideal S288x128 .f32)
    (b1 : FVec Ideal S128 .f32) (w2 : FVec Ideal S128x128 .f32) (b2 : FVec Ideal S128 .f32)
    (wa wb : Mat 128 128) (wc : Mat 32 128)
    (hwa : ∀ (j k : Fin 128), w1 (ix2 ⟨j.val, by have := j.isLt; omega⟩ k) = wa (ix2 j k))
    (hwb : ∀ (j k : Fin 128), w1 (ix2 ⟨128 + j.val, by have := j.isLt; omega⟩ k) = wb (ix2 j k))
    (hwc : ∀ (j : Fin 32) (k : Fin 128), w1 (ix2 ⟨256 + j.val, by have := j.isLt; omega⟩ k) = wc (ix2 j k)) :
    refMlp hi hj ea w1 b1 w2 b2 = msg hi hj ea wa wb wc b1 w2 b2 := by
  funext i
  obtain ⟨p, c, rfl⟩ : ∃ (p : Fin 500000) (c : Fin 128), i = ix2 p c := ⟨i 0, i 1, eq_ix2 i⟩
  exact refMlp_at hi hj ea w1 b1 w2 b2 wa wb wc hwa hwb hwc p c

end Cert.ReferenceIdeal.RefMlp

end
-- ==== Proof.RefValue.lean ====
/-
  The reference's result as two rounds of message passing.

  The reference's run ends with its result at one long composed term of the argument arrays. Grouped by what the
  operations do, that term is: the two endpoint lists are the rows of the edge-index array; an endpoint list becomes a
  gather index column after negative entries are moved up by the node count; a round gathers the node features at both
  endpoint columns, applies the edge network, scatter-adds the messages into a zero array at the second endpoint list
  and adds the result to the node features; the result is two rounds from the input features, plus the output bias
  broadcast over the nodes.
-/
import proofs.«151909_j15006615733821_1_alg».proof.Proof.RefMlp

set_option maxRecDepth 8192

noncomputable section

namespace Cert.ReferenceIdeal.RefValue

open Cert.ReferenceIdeal Cert.ReferenceIdeal.Gen Cert.ReferenceIdeal.Value Cert.ReferenceIdeal.RefMlp
open Idealize.ShloMosaic Idealize.ShloMosaic.TcCoe Idealize.SL.Sem

/-- The first endpoint of every edge: row 0 of the edge-index array. -/
def ends0 (x1 : IVec S2x500000 32) : IVec S500000 32 :=
  shapeCast _ (extractStridedSlice S1x500000 ![0, 0] x1 slices_S2x500000_S1x500000_0_0) shapeCasts_S1x500000_S500000
/-- The second endpoint of every edge: row 1 of the edge-index array. -/
def ends1 (x1 : IVec S2x500000 32) : IVec S500000 32 :=
  shapeCast _ (extractStridedSlice S1x500000 ![1, 0] x1 slices_S2x500000_S1x500000_1_0) shapeCasts_S1x500000_S500000
/-- An endpoint list as a gather index column: a negative entry is moved up by the node count. -/
def idxCol (e : IVec S500000 32) : IVec S500000x1 32 :=
  broadcastInDim S500000x1 ![0] bcast_S500000_S500000x1_0
    (select (cmpi .slt e (broadcastInDim S500000 ![] bcast_S_S500000 (constantI S_ 32 0#32)))
      (addi e (broadcastInDim S500000 ![] bcast_S_S500000 (constantI S_ 32 100000#32))) e)
/-- An endpoint list as a scatter index column, as it stands. -/
def scatCol (e : IVec S500000 32) : IVec S500000x1 32 :=
  broadcastInDim S500000x1 ![0] bcast_S500000_S500000x1_0 e
/-- The zero node array the messages are scattered into. -/
def zeros : FVec Ideal S100000x128 .f32 :=
  broadcastInDim S100000x128 ![] bcast_S_S100000x128 (constant (F := Ideal) S_ .f32 0x00000000#32)

/-- One round: the node features plus the messages of all edges summed at each edge's second endpoint. -/
def step (x1 : IVec S2x500000 32) (x2 : FVec Ideal S500000x32 .f32) (x3 : FVec Ideal S288x128 .f32) (x4 : FVec Ideal S128 .f32)
    (x5 : FVec Ideal S128x128 .f32) (x6 : FVec Ideal S128 .f32) (h : FVec Ideal S100000x128 .f32) : FVec Ideal S100000x128 .f32 :=
  addf h (Host.scatterAdd scatter_S100000x128_S500000x1_S500000x128_1_0_0_1 zeros (scatCol (ends1 x1))
    (refMlp (Host.gather gather_S100000x128_S500000x1_S500000x128_1_0_n_n_0_1_1128 h (idxCol (ends0 x1)))
      (Host.gather gather_S100000x128_S500000x1_S500000x128_1_0_n_n_0_1_1128 h (idxCol (ends1 x1))) x2 x3 x4 x5 x6))

/-- Two rounds and the output bias. -/
def result (x0 : FVec Ideal S100000x128 .f32) (x1 : IVec S2x500000 32) (x2 : FVec Ideal S500000x32 .f32) (x3 : FVec Ideal S288x128 .f32)
    (x4 : FVec Ideal S128 .f32) (x5 : FVec Ideal S128x128 .f32) (x6 : FVec Ideal S128 .f32) (x7 : FVec Ideal S128 .f32) :
    FVec Ideal S100000x128 .f32 :=
  addf (step x1 x2 x3 x4 x5 x6 (step x1 x2 x3 x4 x5 x6 x0))
    (broadcastInDim S100000x128 ![0, 1] bcast_S1x128_S100000x128_0_1 (broadcastInDim S1x128 ![1] bcast_S128_S1x128_1 x7))

/-- The reference run's result term is `result` of the argument arrays. -/
theorem res_eq (m : (ℓ : Loc nD τ sig) → Buf (Elt Ideal) ℓ) (c : Dev nD) :
    res_main_v62 (F := Ideal) m c
      = result (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) := by
  unfold res_main_v62
  rfl

end Cert.ReferenceIdeal.RefValue

end
-- ==== Proof.Bridge.lean ====
/-
  The two programs compute one function.

  Both results are two rounds of message passing followed by the output bias, with the same gathers, the same
  scatter-add and the same index columns; they differ in the edge network only. The kernel's is the three-band form
  on operands passed through changes of float format, which are the identity on the extended reals; the reference's
  is the whole-weight form on the concatenated input. The bands are the first weight's rows 0–127, 128–255 and
  256–287 (a row slice read at `(j, k)` is the weight at the slice's first row plus `j`), so the two edge networks
  are one array of messages, and everything around them is the same term.
-/
import proofs.«151909_j15006615733821_1_alg».proof.Proof.KernelValue
import proofs.«151909_j15006615733821_1_alg».proof.Proof.RefValue

set_option maxRecDepth 16384

noncomputable section

namespace Cert.Bridge

open Idealize.ShloMosaic Idealize.ShloMosaic.ValueIdx Cert.EdgeMlp
open Cert.KernelIdeal.KernelValue (band0 band1 band2)

/-- Row `j` of the first band is row `j` of the weight. -/
theorem band0_at (x3 : FVec Ideal Cert.KernelIdeal.S288x128 .f32) (j k : Fin 128) :
    x3 (ix2 ⟨j.val, by have := j.isLt; omega⟩ k) = band0 x3 (ix2 j k) :=
  (slice2_axis0_apply 0 x3 Cert.KernelIdeal.Gen.slices_S288x128_S128x128_0_0 j k ⟨j.val, by have := j.isLt; omega⟩
    (Nat.zero_add _).symm).symm
/-- Row `j` of the second band is row `128 + j` of the weight. -/
theorem band1_at (x3 : FVec Ideal Cert.KernelIdeal.S288x128 .f32) (j k : Fin 128) :
    x3 (ix2 ⟨128 + j.val, by have := j.isLt; omega⟩ k) = band1 x3 (ix2 j k) :=
  (slice2_axis0_apply 128 x3 Cert.KernelIdeal.Gen.slices_S288x128_S128x128_128_0 j k ⟨128 + j.val, by have := j.isLt; omega⟩
    rfl).symm
/-- Row `j` of the third band is row `256 + j` of the weight. -/
theorem band2_at (x3 : FVec Ideal Cert.KernelIdeal.S288x128 .f32) (j : Fin 32) (k : Fin 128) :
    x3 (ix2 ⟨256 + j.val, by have := j.isLt; omega⟩ k) = band2 x3 (ix2 j k) :=
  (slice2_axis0_apply 256 x3 Cert.KernelIdeal.Gen.slices_S288x128_S32x128_256_0 j k ⟨256 + j.val, by have := j.isLt; omega⟩
    rfl).symm

/-- One round's messages: the kernel's and the reference's edge networks on the same node features. -/
theorem kmsg_eq (x1 : IVec Cert.KernelIdeal.S2x500000 32) (x2 : FVec Ideal Cert.KernelIdeal.S500000x32 .f32)
    (x3 : FVec Ideal Cert.KernelIdeal.S288x128 .f32) (x4 : FVec Ideal Cert.KernelIdeal.S128 .f32)
    (x5 : FVec Ideal Cert.KernelIdeal.S128x128 .f32) (x6 : FVec Ideal Cert.KernelIdeal.S128 .f32)
    (h : FVec Ideal Cert.KernelIdeal.S100000x128 .f32) :
    Cert.KernelIdeal.KernelValue.kmsg x1 x2 x3 x4 x5 x6 h
      = Cert.ReferenceIdeal.RefMlp.refMlp
          (Host.gather Cert.ReferenceIdeal.gather_S100000x128_S500000x1_S500000x128_1_0_n_n_0_1_1128 h
            (Cert.ReferenceIdeal.RefValue.idxCol (Cert.ReferenceIdeal.RefValue.ends0 x1)))
          (Host.gather Cert.ReferenceIdeal.gather_S100000x128_S500000x1_S500000x128_1_0_n_n_0_1_1128 h
            (Cert.ReferenceIdeal.RefValue.idxCol (Cert.ReferenceIdeal.RefValue.ends1 x1))) x2 x3 x4 x5 x6 := by
  rw [Cert.ReferenceIdeal.RefMlp.refMlp_eq _ _ x2 x3 x4 x5 x6 (band0 x3) (band1 x3) (band2 x3)
    (band0_at x3) (band1_at x3) (band2_at x3)]
  rfl

/-- One round: the same step. -/
theorem step_eq (x1 : IVec Cert.KernelIdeal.S2x500000 32) (x2 : FVec Ideal Cert.KernelIdeal.S500000x32 .f32)
    (x3 : FVec Ideal Cert.KernelIdeal.S288x128 .f32) (x4 : FVec Ideal Cert.KernelIdeal.S128 .f32)
    (x5 : FVec Ideal Cert.KernelIdeal.S128x128 .f32) (x6 : FVec Ideal Cert.KernelIdeal.S128 .f32)
    (h : FVec Ideal Cert.KernelIdeal.S100000x128 .f32) :
    Cert.KernelIdeal.KernelValue.step x1 x2 x3 x4 x5 x6 h = Cert.ReferenceIdeal.RefValue.step x1 x2 x3 x4 x5 x6 h := by
  unfold Cert.KernelIdeal.KernelValue.step Cert.ReferenceIdeal.RefValue.step
  rw [kmsg_eq]
  rfl

/-- The two results are one function of the argument arrays. -/
theorem result_eq (x0 : FVec Ideal Cert.KernelIdeal.S100000x128 .f32) (x1 : IVec Cert.KernelIdeal.S2x500000 32)
    (x2 : FVec Ideal Cert.KernelIdeal.S500000x32 .f32) (x3 : FVec Ideal Cert.KernelIdeal.S288x128 .f32)
    (x4 : FVec Ideal Cert.KernelIdeal.S128 .f32) (x5 : FVec Ideal Cert.KernelIdeal.S128x128 .f32)
    (x6 : FVec Ideal Cert.KernelIdeal.S128 .f32) (x7 : FVec Ideal Cert.KernelIdeal.S128 .f32) :
    Cert.KernelIdeal.KernelValue.result x0 x1 x2 x3 x4 x5 x6 x7 = Cert.ReferenceIdeal.RefValue.result x0 x1 x2 x3 x4 x5 x6 x7 := by
  unfold Cert.KernelIdeal.KernelValue.result Cert.ReferenceIdeal.RefValue.result
  rw [step_eq, step_eq]

end Cert.Bridge

end
-- ==== Proof.lean ====
/-
  Two rounds of message passing on a graph: the edge kernel against its plain reference, equal on the extended reals.

  The program takes node features `x` (100000 × 128), the two endpoint lists of 500000 edges, edge attributes
  (500000 × 32), an edge network (a 288 × 128 weight and bias, a rectifier, a 128 × 128 weight and bias) and an output
  bias. A round gathers the node features at both endpoints of every edge, applies the edge network to the two
  gathered rows and the edge's attributes, sums the resulting messages at each edge's second endpoint and adds the sums
  to the node features. The result is two rounds from `x`, plus the output bias on every node.

  The kernel computes the edge network in blocks of 5000 edges, one grid point each, with the first weight cut into its
  three row bands (one matrix product per band, into zero accumulators, then added) and its operands passed through
  changes of float format; the reference concatenates the three inputs and multiplies by the whole weight. On the
  extended reals a change of format is the identity, each product is the textbook sum, and the sum over the 288
  concatenated columns is the sum of the three bands' sums — associativity and commutativity of addition only, so no
  finiteness of the inputs is used. The 100 blocks tile the edges, so each region's output array is the array of all
  messages of its round (Region0, Region1 over Body and EdgeMlp); the host operations around the regions are the
  reference's own (KernelValue, RefValue); the two results are one function of the arguments (Bridge).

  The three frame claims: each kernel program runs and leaves its arguments as launched (the generated frame
  certificates); the reference's frame is its generated run with the result dropped. The idealization rewrote no
  operation, so that claim is trivial.
-/
import proofs.«151909_j15006615733821_1_alg».proof.Defs
import proofs.«151909_j15006615733821_1_alg».proof.Proof.Gen.Kernel
import proofs.«151909_j15006615733821_1_alg».proof.Proof.Gen.KernelIdeal
import proofs.«151909_j15006615733821_1_alg».proof.Proof.Gen.ReferenceIdeal
import proofs.«151909_j15006615733821_1_alg».proof.Proof.Gen.ReferenceIdeal.Run
import proofs.«151909_j15006615733821_1_alg».proof.Proof.Gen.ReferenceIdeal.Read
import proofs.«151909_j15006615733821_1_alg».proof.Proof.Gen.Pre_finite_inputs
import proofs.«151909_j15006615733821_1_alg».proof.Proof.KernelFrameP
import proofs.«151909_j15006615733821_1_alg».proof.Proof.KernelIdealFrameP
import proofs.«151909_j15006615733821_1_alg».proof.Proof.KernelRun
import proofs.«151909_j15006615733821_1_alg».proof.Proof.KernelValue
import proofs.«151909_j15006615733821_1_alg».proof.Proof.RefValue
import proofs.«151909_j15006615733821_1_alg».proof.Proof.Bridge
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.GenP.frame m ρ

theorem frame_ki : Cert.frame_KernelIdeal (hKernelIdeal := Cert.KernelIdeal.Gen.facts) (hPre_finite_inputs := Cert.Pre_finite_inputs.Gen.facts) :=
  fun m ρ _ => Cert.KernelIdeal.GenP.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with their results at the two-round function of the
    arguments: the kernel by its run read back through the regions, the reference by its run's term. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.KernelValue.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono (fun r h c => ⟨(h c).1.trans (Cert.KernelIdeal.KernelValue.w5_v54 m ρ c), (h c).2⟩)
      (Cert.KernelIdeal.Run.run_result (F := Ideal) m ρ)
  · refine (θ_run Cert.ReferenceIdeal.defs _ _).mono (fun _ h c => ⟨(h c).1.trans ?_, (h c).2⟩) (Cert.ReferenceIdeal.Value.run (F := Ideal) m' ρ')
    rw [Cert.ReferenceIdeal.RefValue.res_eq, (hagree c).1, (hagree c).2.1, (hagree c).2.2.1, (hagree c).2.2.2.1, (hagree c).2.2.2.2.1,
      (hagree c).2.2.2.2.2.1, (hagree c).2.2.2.2.2.2.1, (hagree c).2.2.2.2.2.2.2]
    exact (Cert.Bridge.result_eq _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
